-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x10 .f32) (main_arg12 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S3x64 .f32) (main_arg7 : FVec F S3x64x64 .f32) (main_arg8 : FVec F S3x64 .f32) (main_arg9 : FVec F S64x64 .f32) (main_arg10 : FVec F S64 .f32) (main_arg11 : FVec F S64x10 .f32) (main_arg12 : FVec F S10 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S3x64x64 .f32) (main_arg6 : FVec F S3x64 .f32) (main_arg7 : FVec F S3x64x64 .f32) (main_arg8 : FVec F S3x64 .f32) (main_arg9 : FVec F S64x64 .f32) (main_arg10 : FVec F S64 .f32) (main_arg11 : FVec F S64x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1000x64 : Shape := ⟨2, ![1000, 64]⟩
abbrev S100000x1 : Shape := ⟨2, ![100000, 1]⟩
abbrev S1000x10 : Shape := ⟨2, ![1000, 10]⟩
abbrev S1x10 : Shape := ⟨2, ![1, 10]⟩
abbrev S1000 : Shape := ⟨1, ![1000]⟩
abbrev S1000x1 : Shape := ⟨2, ![1000, 1]⟩

abbrev nBuf : Space → Nat
  | .hbm => 121
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S64x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S1x64, .f32⟩
  | .hbm, ⟨18, _⟩ => ⟨S100000x64, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S1x64x64, .f32⟩
  | .hbm, ⟨33, _⟩ => ⟨S64x64, .f32⟩
  | .hbm, ⟨34, _⟩ => ⟨S1x64, .f32⟩
  | .hbm, ⟨35, _⟩ => ⟨S64, .f32⟩
  | .hbm, ⟨36, _⟩ => ⟨S1x64x64, .f32⟩
  | .hbm, ⟨37, _⟩ => ⟨S64x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S1x64x64, .f32⟩
  | .hbm, ⟨57, _⟩ => ⟨S64x64, .f32⟩
  | .hbm, ⟨58, _⟩ => ⟨S1x64, .f32⟩
  | .hbm, ⟨59, _⟩ => ⟨S64, .f32⟩
  | .hbm, ⟨60, _⟩ => ⟨S1x64x64, .f32⟩
  | .hbm, ⟨61, _⟩ => ⟨S64x64, .f32⟩
  | .hbm, ⟨62, _⟩ => ⟨S1x64, .f32⟩
  | .hbm, ⟨63, _⟩ => ⟨S64, .f32⟩
  | .hbm, ⟨64, _⟩ => ⟨S1x64, .f32⟩
  | .hbm, ⟨65, _⟩ => ⟨S1x64, .f32⟩
  | .hbm, ⟨66, _⟩ => ⟨S100000x64, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .hbm, ⟨80, _⟩ => ⟨S1x64x64, .f32⟩
  | .hbm, ⟨81, _⟩ => ⟨S64x64, .f32⟩
  | .hbm, ⟨82, _⟩ => ⟨S1x64, .f32⟩
  | .hbm, ⟨83, _⟩ => ⟨S64, .f32⟩
  | .hbm, ⟨84, _⟩ => ⟨S1x64x64, .f32⟩
  | .hbm, ⟨85, _⟩ => ⟨S64x64, .f32⟩
  | .hbm, ⟨86, _⟩ => ⟨S1x64, .f32⟩
  | .hbm, ⟨87, _⟩ => ⟨S64, .f32⟩
  | .hbm, ⟨88, _⟩ => ⟨S1x64, .f32⟩
  | .hbm, ⟨89, _⟩ => ⟨S1x64, .f32⟩
  | .hbm, ⟨90, _⟩ => ⟨S100000x64, .f32⟩
  | .hbm, ⟨91, _⟩ => ⟨S_, .f32⟩
  | .hbm, ⟨92, _⟩ => ⟨S1000x64, .f32⟩
  | .hbm, ⟨93, _⟩ => ⟨S100000x1, .i32⟩
  | .hbm, ⟨94, _⟩ => ⟨S1000x64, .f32⟩
  | .hbm, ⟨95, _⟩ => ⟨S1000x64, .f32⟩
  | .hbm, ⟨96, _⟩ => ⟨S1x64, .f32⟩
  | .hbm, ⟨97, _⟩ => ⟨S1000x64, .f32⟩
  | .hbm, ⟨98, _⟩ => ⟨S1000x64, .f32⟩
  | .hbm, ⟨99, _⟩ => ⟨S_, .f32⟩
  | .hbm, ⟨100, _⟩ => ⟨S1000x64, .f32⟩
  | .hbm, ⟨101, _⟩ => ⟨S1000x64, .f32⟩
  | .hbm, ⟨102, _⟩ => ⟨S1000x10, .f32⟩
  | .hbm, ⟨103, _⟩ => ⟨S1x10, .f32⟩
  | .hbm, ⟨104, _⟩ => ⟨S1000x10, .f32⟩
  | .hbm, ⟨105, _⟩ => ⟨S1000x10, .f32⟩
  | .hbm, ⟨106, _⟩ => ⟨S_, .f32⟩
  | .hbm, ⟨107, _⟩ => ⟨S1000, .f32⟩
  | .hbm, ⟨108, _⟩ => ⟨S_, .f32⟩
  | .hbm, ⟨109, _⟩ => ⟨S1000, .f32⟩
  | .hbm, ⟨110, _⟩ => ⟨S1000, .f32⟩
  | .hbm, ⟨111, _⟩ => ⟨S1000x1, .f32⟩
  | .hbm, ⟨112, _⟩ => ⟨S1000x10, .f32⟩
  | .hbm, ⟨113, _⟩ => ⟨S1000x10, .f32⟩
  | .hbm, ⟨114, _⟩ => ⟨S1000x10, .f32⟩
  | .hbm, ⟨115, _⟩ => ⟨S_, .f32⟩
  | .hbm, ⟨116, _⟩ => ⟨S1000, .f32⟩
  | .hbm, ⟨117, _⟩ => ⟨S1000x1, .f32⟩
  | .hbm, ⟨118, _⟩ => ⟨S1000x1, .f32⟩
  | .hbm, ⟨119, _⟩ => ⟨S1000x10, .f32⟩
  | .hbm, ⟨120, _⟩ => ⟨S1000x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_1 : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_4 : Ref sig .tc := ⟨.hbm, 67, rfl⟩
abbrev main_v48 : Ref sig .tc := ⟨.hbm, 68, rfl⟩
abbrev main_v49 : Ref sig .tc := ⟨.hbm, 69, rfl⟩
abbrev main_c_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_7 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call0_cst : Ref sig .tc := ⟨.hbm, 99, rfl⟩
abbrev main_call0_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call1_cst : Ref sig .tc := ⟨.hbm, 106, rfl⟩
abbrev main_call1_v0 : Ref sig .tc := ⟨.hbm, 107, rfl⟩
abbrev main_call1_cst_0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_v6 : Ref sig .tc := ⟨.hbm, 114, rfl⟩
abbrev main_call1_cst_1 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_v81 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S1000x64_0_1 : S1x64.BroadcastsInDim S1000x64 (![0, 1] : Fin 2 → Fin S1000x64.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  reducesTo_S1000x10_S1000_d1 : S1000x10.ReducesTo [1] S1000
  h_S_ : 0 < S_.numel
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x10_0_1 : S1000x1.BroadcastsInDim S1000x10 (![0, 1] : Fin 2 → Fin S1000x10.rank)
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S1000x64_S100000x1_S100000x64_1_0_0_1_wf : ScatterDims.WF S1000x64 S100000x1 S100000x64 [1] [0] [0] 1
  dot_S1000x64_S64x64_S1000x64_1_0_0_1_n_n_wf : DotDims.WF S1000x64 S64x64 S1000x64 [1] [0] [0] [1] [] []
  dot_S1000x64_S64x10_S1000x10_1_0_0_1_n_n_wf : DotDims.WF S1000x64 S64x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S1000x64 : Shape := ⟨2, ![1000, 64]⟩
abbrev S100000x1 : Shape := ⟨2, ![100000, 1]⟩
abbrev S1000x10 : Shape := ⟨2, ![1000, 10]⟩
abbrev S1x10 : Shape := ⟨2, ![1, 10]⟩
abbrev S1000 : Shape := ⟨1, ![1000]⟩
abbrev S1000x1 : Shape := ⟨2, ![1000, 1]⟩

abbrev nBuf : Space → Nat
  | .hbm => 159
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S3x64x64, .f32⟩
  | 6 => ⟨S3x64, .f32⟩
  | 7 => ⟨S3x64x64, .f32⟩
  | 8 => ⟨S3x64, .f32⟩
  | 9 => ⟨S64x64, .f32⟩
  | 10 => ⟨S64, .f32⟩
  | 11 => ⟨S64x10, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S1x64, .f32⟩
  | 19 => ⟨S100000x64, .f32⟩
  | 20 => ⟨S100000x64, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S100000x64, .f32⟩
  | 35 => ⟨S1x64x64, .f32⟩
  | 36 => ⟨S64x64, .f32⟩
  | 37 => ⟨S100000x64, .f32⟩
  | 38 => ⟨S1x64, .f32⟩
  | 39 => ⟨S64, .f32⟩
  | 40 => ⟨S1x64, .f32⟩
  | 41 => ⟨S100000x64, .f32⟩
  | 42 => ⟨S100000x64, .f32⟩
  | 43 => ⟨S_, .f32⟩
  | 44 => ⟨S100000x64, .f32⟩
  | 45 => ⟨S100000x64, .f32⟩
  | 46 => ⟨S1x64x64, .f32⟩
  | 47 => ⟨S64x64, .f32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S1x64x64, .f32⟩
  | 83 => ⟨S64x64, .f32⟩
  | 84 => ⟨S100000x64, .f32⟩
  | 85 => ⟨S1x64, .f32⟩
  | 86 => ⟨S64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000x64, .f32⟩
  | 107 => ⟨S1x64x64, .f32⟩
  | 108 => ⟨S64x64, .f32⟩
  | 109 => ⟨S100000x64, .f32⟩
  | 110 => ⟨S1x64, .f32⟩
  | 111 => ⟨S64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x64x64, .f32⟩
  | 119 => ⟨S64x64, .f32⟩
  | 120 => ⟨S100000x64, .f32⟩
  | 121 => ⟨S1x64, .f32⟩
  | 122 => ⟨S64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S_, .f32⟩
  | 2 => ⟨S1000x64, .f32⟩
  | 3 => ⟨S100000x1, .i32⟩
  | 4 => ⟨S1000x64, .f32⟩
  | 5 => ⟨S1000x64, .f32⟩
  | 6 => ⟨S1x64, .f32⟩
  | 7 => ⟨S1000x64, .f32⟩
  | 8 => ⟨S1000x64, .f32⟩
  | 9 => ⟨S_, .f32⟩
  | 10 => ⟨S1000x64, .f32⟩
  | 11 => ⟨S1000x64, .f32⟩
  | 12 => ⟨S1000x10, .f32⟩
  | 13 => ⟨S1x10, .f32⟩
  | 14 => ⟨S1000x10, .f32⟩
  | 15 => ⟨S1000x10, .f32⟩
  | 16 => ⟨S_, .f32⟩
  | 17 => ⟨S1000, .f32⟩
  | 18 => ⟨S_, .f32⟩
  | 19 => ⟨S1000, .f32⟩
  | 20 => ⟨S1000, .f32⟩
  | 21 => ⟨S1000x1, .f32⟩
  | 22 => ⟨S1000x10, .f32⟩
  | 23 => ⟨S1000x10, .f32⟩
  | 24 => ⟨S1000x10, .f32⟩
  | 25 => ⟨S_, .f32⟩
  | 26 => ⟨S1000, .f32⟩
  | 27 => ⟨S1000x1, .f32⟩
  | 28 => ⟨S1000x1, .f32⟩
  | 29 => ⟨S1000x10, .f32⟩
  | 30 => ⟨S1000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_c_1 : Ref sig .tc := ⟨.hbm, 57, rfl⟩
abbrev main_v37 : Ref sig .tc := ⟨.hbm, 58, rfl⟩
abbrev main_v38 : Ref sig .tc := ⟨.hbm, 59, rfl⟩
abbrev main_c_2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call2_cst : Ref sig .tc := ⟨.hbm, 79, rfl⟩
abbrev main_call2_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call3_cst : Ref sig .tc := ⟨.hbm, 90, rfl⟩
abbrev main_call3_v0 : Ref sig .tc := ⟨.hbm, 91, rfl⟩
abbrev main_v65 : Ref sig .tc := ⟨.hbm, 92, rfl⟩
abbrev main_c_4 : Ref sig .tc := ⟨.hbm, 93, rfl⟩
abbrev main_v66 : Ref sig .tc := ⟨.hbm, 94, rfl⟩
abbrev main_v67 : Ref sig .tc := ⟨.hbm, 95, rfl⟩
abbrev main_c_5 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_6 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call4_cst : Ref sig .tc := ⟨.hbm, 115, rfl⟩
abbrev main_call4_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_call5_cst : Ref sig .tc := ⟨.hbm, 126, rfl⟩
abbrev main_call5_v0 : Ref sig .tc := ⟨.hbm, 127, rfl⟩
abbrev main_v94 : Ref sig .tc := ⟨.hbm, 128, rfl⟩
abbrev main_cst_7 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_call6_cst : Ref sig .tc := ⟨.hbm, 137, rfl⟩
abbrev main_call6_v0 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_call7_cst : Ref sig .tc := ⟨.hbm, 144, rfl⟩
abbrev main_call7_v0 : Ref sig .tc := ⟨.hbm, 145, rfl⟩
abbrev main_call7_cst_0 : Ref sig .tc := ⟨.hbm, 146, rfl⟩
abbrev main_call7_v1 : Ref sig .tc := ⟨.hbm, 147, rfl⟩
abbrev main_call7_v2 : Ref sig .tc := ⟨.hbm, 148, rfl⟩
abbrev main_call7_v3 : Ref sig .tc := ⟨.hbm, 149, rfl⟩
abbrev main_call7_v4 : Ref sig .tc := ⟨.hbm, 150, rfl⟩
abbrev main_call7_v5 : Ref sig .tc := ⟨.hbm, 151, rfl⟩
abbrev main_call7_v6 : Ref sig .tc := ⟨.hbm, 152, rfl⟩
abbrev main_call7_cst_1 : Ref sig .tc := ⟨.hbm, 153, rfl⟩
abbrev main_call7_v7 : Ref sig .tc := ⟨.hbm, 154, rfl⟩
abbrev main_call7_v8 : Ref sig .tc := ⟨.hbm, 155, rfl⟩
abbrev main_call7_v9 : Ref sig .tc := ⟨.hbm, 156, rfl⟩
abbrev main_call7_v10 : Ref sig .tc := ⟨.hbm, 157, rfl⟩
abbrev main_v107 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S1x64_S1000x64_0_1 : S1x64.BroadcastsInDim S1000x64 (![0, 1] : Fin 2 → Fin S1000x64.rank)
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  reducesTo_S1000x10_S1000_d1 : S1000x10.ReducesTo [1] S1000
  h_S_ : 0 < S_.numel
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x10_0_1 : S1000x1.BroadcastsInDim S1000x10 (![0, 1] : Fin 2 → Fin S1000x10.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  dot_S1000x64_S64x64_S1000x64_1_0_0_1_n_n_wf : DotDims.WF S1000x64 S64x64 S1000x64 [1] [0] [0] [1] [] []
  dot_S1000x64_S64x10_S1000x10_1_0_0_1_n_n_wf : DotDims.WF S1000x64 S64x10 S1000x10 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

class Facts : Prop extends Facts₀ where

variable [Facts]
-- ==== Proof.KRun.lean ====
/-
  The run of the kernel's program from any launch memory with zero counters, with its result named: on every core, the
  final state holds in the result buffer what the fold of the program's twelve stretches leaves there (the last
  boundary's contents `W12`), and each of the thirteen argument arrays as launched.
-/
import proofs.«140374_j7997229105403_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- At the compiled mesh, from any memory with zero counters, every weakly fair execution of the program on the
    TensorCores terminates, nothing faulting, and in every final state each core's result buffer holds the last
    boundary's contents `W12` of the fold through the program, and each argument array is as launched. The last thread
    state holds every unscoped buffer at `W12`; the result buffer is unscoped, so it is read off against the final state
    like the arguments. -/
theorem run_value : θ_run defs (onTc (τ := τ) (main (F := F))) ⟨m, fun _ => 0, ρ⟩ (fun r => ∀ c : Dev nD,
      r.2.mem ((c.tc : Thread nD τ).loc main_v81) = W12 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v81 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.RunValue

end
-- ==== Proof.KLayers.lean ====
/-
  The host stages of the kernel's program between and after its four launches, named: the edge list's two rows, the
  neighbourhood aggregate, each layer's weight and bias slices, and the readout.
-/
import proofs.«140374_j7997229105403_1_alg».proof.Proof.Gen.KernelIdeal
import Idealize.ShloMosaic.PureOps.Ideal

noncomputable section

namespace Cert.KernelIdeal.Layers

open Idealize.ShloMosaic Idealize.ShloMosaic.TcCoe Cert.KernelIdeal Cert.KernelIdeal.Facts₀ Cert.KernelIdeal.Facts

/-- The message sources: row 0 of the edge list. -/
def srcOf (e : Vec Ideal S2x1600000 .i32) : Vec Ideal S1600000 .i32 :=
  shapeCast _ (extractStridedSlice S1x1600000 ![0, 0] e slices_S2x1600000_S1x1600000_0_0) shapeCasts_S1x1600000_S1600000

/-- The message targets: row 1 of the edge list. -/
def dstOf (e : Vec Ideal S2x1600000 .i32) : Vec Ideal S1600000 .i32 :=
  shapeCast _ (extractStridedSlice S1x1600000 ![1, 0] e slices_S2x1600000_S1x1600000_1_0) shapeCasts_S1x1600000_S1600000

/-- The neighbourhood aggregate: the rows of `h` at the sources (a negative source counted from the end), summed into
    the rows named by the targets, starting from zero. -/
def agg (h : FVec Ideal S100000x64 .f32) (e : Vec Ideal S2x1600000 .i32) : FVec Ideal S100000x64 .f32 :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 (dstOf e))
    (Host.gather gather_S100000x64_S1600000x1_S1600000x64_1_0_n_n_0_1_164 h
      (broadcastInDim S1600000x1 ![0] bcast_S1600000_S1600000x1_0 (select (cmpi .slt (srcOf e) (broadcastInDim S1600000 ![] bcast_S_S1600000 (constantI S_ 32 0#32))) (addi (srcOf e) (broadcastInDim S1600000 ![] bcast_S_S1600000 (constantI S_ 32 100000#32))) (srcOf e))))

/-- Layer 0's first weight matrix. -/
def w1_0 (W : FVec Ideal S3x64x64 .f32) : FVec Ideal S64x64 .f32 :=
  shapeCast _ (extractStridedSlice S1x64x64 ![0, 0, 0] W slices_S3x64x64_S1x64x64_0_0_0) shapeCasts_S1x64x64_S64x64
/-- Layer 0's second weight matrix. -/
def w2_0 (W : FVec Ideal S3x64x64 .f32) : FVec Ideal S64x64 .f32 :=
  shapeCast _ (extractStridedSlice S1x64x64 ![0, 0, 0] W slices_S3x64x64_S1x64x64_0_0_0) shapeCasts_S1x64x64_S64x64
/-- Layer 0's first bias. -/
def b1_0 (B : FVec Ideal S3x64 .f32) : FVec Ideal S64 .f32 :=
  shapeCast _ (extractStridedSlice S1x64 ![0, 0] B slices_S3x64_S1x64_0_0) shapeCasts_S1x64_S64
/-- Layer 0's second bias. -/
def b2_0 (B : FVec Ideal S3x64 .f32) : FVec Ideal S64 .f32 :=
  shapeCast _ (extractStridedSlice S1x64 ![0, 0] B slices_S3x64_S1x64_0_0) shapeCasts_S1x64_S64

/-- Layer 1's first weight matrix. -/
def w1_1 (W : FVec Ideal S3x64x64 .f32) : FVec Ideal S64x64 .f32 :=
  shapeCast _ (extractStridedSlice S1x64x64 ![1, 0, 0] W slices_S3x64x64_S1x64x64_1_0_0) shapeCasts_S1x64x64_S64x64
/-- Layer 1's second weight matrix. -/
def w2_1 (W : FVec Ideal S3x64x64 .f32) : FVec Ideal S64x64 .f32 :=
  shapeCast _ (extractStridedSlice S1x64x64 ![1, 0, 0] W slices_S3x64x64_S1x64x64_1_0_0) shapeCasts_S1x64x64_S64x64
/-- Layer 1's first bias. -/
def b1_1 (B : FVec Ideal S3x64 .f32) : FVec Ideal S64 .f32 :=
  shapeCast _ (extractStridedSlice S1x64 ![1, 0] B slices_S3x64_S1x64_1_0) shapeCasts_S1x64_S64
/-- Layer 1's second bias. -/
def b2_1 (B : FVec Ideal S3x64 .f32) : FVec Ideal S64 .f32 :=
  shapeCast _ (extractStridedSlice S1x64 ![1, 0] B slices_S3x64_S1x64_1_0) shapeCasts_S1x64_S64

/-- Layer 2's first weight matrix. -/
def w1_2 (W : FVec Ideal S3x64x64 .f32) : FVec Ideal S64x64 .f32 :=
  shapeCast _ (extractStridedSlice S1x64x64 ![2, 0, 0] W slices_S3x64x64_S1x64x64_2_0_0) shapeCasts_S1x64x64_S64x64
/-- Layer 2's second weight matrix. -/
def w2_2 (W : FVec Ideal S3x64x64 .f32) : FVec Ideal S64x64 .f32 :=
  shapeCast _ (extractStridedSlice S1x64x64 ![2, 0, 0] W slices_S3x64x64_S1x64x64_2_0_0) shapeCasts_S1x64x64_S64x64
/-- Layer 2's first bias. -/
def b1_2 (B : FVec Ideal S3x64 .f32) : FVec Ideal S64 .f32 :=
  shapeCast _ (extractStridedSlice S1x64 ![2, 0] B slices_S3x64_S1x64_2_0) shapeCasts_S1x64_S64
/-- Layer 2's second bias. -/
def b2_2 (B : FVec Ideal S3x64 .f32) : FVec Ideal S64 .f32 :=
  shapeCast _ (extractStridedSlice S1x64 ![2, 0] B slices_S3x64_S1x64_2_0) shapeCasts_S1x64_S64

/-- The readout's scores: the node features pooled per graph (summed into the rows named by `bt`), one rectified
    dense layer, one dense layer. -/
def logits (h : FVec Ideal S100000x64 .f32) (bt : Vec Ideal S100000 .i32) (qw : FVec Ideal S64x64 .f32) (qb : FVec Ideal S64 .f32) (rw : FVec Ideal S64x10 .f32) (rb : FVec Ideal S10 .f32) : FVec Ideal S1000x10 .f32 :=
  addf (Host.dotGeneral dot_S1000x64_S64x10_S1000x10_1_0_0_1_n_n none (maximumf (addf (Host.dotGeneral dot_S1000x64_S64x64_S1000x64_1_0_0_1_n_n none (Host.scatterAdd scatter_S1000x64_S100000x1_S100000x64_1_0_0_1 (broadcastInDim S1000x64 ![] bcast_S_S1000x64 (constant S_ .f32 0x00000000#32)) (broadcastInDim S100000x1 ![0] bcast_S100000_S100000x1_0 bt) h) qw) (broadcastInDim S1000x64 ![0, 1] bcast_S1x64_S1000x64_0_1 (broadcastInDim S1x64 ![1] bcast_S64_S1x64_1 qb))) (broadcastInDim S1000x64 ![] bcast_S_S1000x64 (constant S_ .f32 0x00000000#32))) rw) (broadcastInDim S1000x10 ![0, 1] bcast_S1x10_S1000x10_0_1 (broadcastInDim S1x10 ![1] bcast_S10_S1x10_1 rb))

/-- The logarithm of the softmax along each row. -/
def logSoftmax (lg : FVec Ideal S1000x10 .f32) : FVec Ideal S1000x10 .f32 :=
  subf (subf lg (broadcastInDim S1000x10 ![0, 1] bcast_S1000x1_S1000x10_0_1 (broadcastInDim S1000x1 ![0] bcast_S1000_S1000x1_0 (maximumf (broadcastInDim S1000 ![] bcast_S_S1000 (constant S_ .f32 0xFF800000#32)) (Host.reduce FloatOps.maximumf lg (constant S_ .f32 0xFF800000#32) reducesTo_S1000x10_S1000_d1 h_S_))))) (broadcastInDim S1000x10 ![0, 1] bcast_S1000x1_S1000x10_0_1 (Host.log (broadcastInDim S1000x1 ![0] bcast_S1000_S1000x1_0 (Host.reduceAdd (Host.exp (subf lg (broadcastInDim S1000x10 ![0, 1] bcast_S1000x1_S1000x10_0_1 (broadcastInDim S1000x1 ![0] bcast_S1000_S1000x1_0 (maximumf (broadcastInDim S1000 ![] bcast_S_S1000 (constant S_ .f32 0xFF800000#32)) (Host.reduce FloatOps.maximumf lg (constant S_ .f32 0xFF800000#32) reducesTo_S1000x10_S1000_d1 h_S_)))))) (constant S_ .f32 0x00000000#32) reducesTo_S1000x10_S1000_d1 h_S_))))

/-- Everything after the last message-passing layer. -/
def tail (h : FVec Ideal S100000x64 .f32) (bt : Vec Ideal S100000 .i32) (qw : FVec Ideal S64x64 .f32) (qb : FVec Ideal S64 .f32) (rw : FVec Ideal S64x10 .f32) (rb : FVec Ideal S10 .f32) : FVec Ideal S1000x10 .f32 :=
  logSoftmax (logits h bt qw qb rw rb)

end Cert.KernelIdeal.Layers

end
-- ==== Proof.KTail.lean ====
/-
  What the program computes after its last launch. Four stretches of host operations follow it: the node features the
  launch left are pooled per graph (summed into the rows the batch vector names), a dense layer and its bias, the
  rectification, a second dense layer and its bias, and the logarithm of the softmax along each row. Each stretch
  rewrites only its own result buffers, so what the result buffer holds at the end is one function, `Layers.tail`, of the
  last launch's output array as the launch left it and of five argument arrays as launched.
-/
import proofs.«140374_j7997229105403_1_alg».proof.Proof.Gen.KernelIdeal.Frame
import proofs.«140374_j7997229105403_1_alg».proof.Proof.KLayers

set_option maxRecDepth 16384

noncomputable section

namespace Cert.KernelIdeal.TailValue

open Idealize.ShloMosaic Idealize.ShloMosaic.TcCoe
open Cert.KernelIdeal Cert.KernelIdeal.Gen

/-! ## The four stretches, from any contents `V` of the buffers -/

section Stretches

variable (V : Valuation τ sig (Elt Ideal))

/-- The first three stretches — pooling, dense layer, rectification, dense layer — leave the scores `Layers.logits` of
    what `V` holds at the last launch's output array and at the five arguments they read. -/
theorem logits_stage :
    StableHlo.after (hostOps4_2 (F := Ideal)) (StableHlo.after hostOps4_1 (StableHlo.after hostOps4 V)) (Proc.devRef .tc main_v80)
      = Layers.logits (V (Proc.devRef .tc main_v68)) (V (Proc.devRef .tc main_arg2)) (V (Proc.devRef .tc main_arg9))
          (V (Proc.devRef .tc main_arg10)) (V (Proc.devRef .tc main_arg11)) (V (Proc.devRef .tc main_arg12)) := by
  unfold Layers.logits
  after_results_simp
  rfl

/-- The last stretch leaves the logarithm of the softmax of what `V` holds at the scores' buffer. -/
theorem logSoftmax_stage :
    StableHlo.after (hostOps4_3 (F := Ideal)) V (Proc.devRef .tc main_v81) = Layers.logSoftmax (V (Proc.devRef .tc main_v80)) := by
  unfold Layers.logSoftmax
  after_results
  rfl

/-- The four stretches together leave `Layers.tail` in the result buffer. -/
theorem tail_stage :
    StableHlo.after (hostOps4_3 (F := Ideal)) (StableHlo.after hostOps4_2 (StableHlo.after hostOps4_1 (StableHlo.after hostOps4 V)))
        (Proc.devRef .tc main_v81)
      = Layers.tail (V (Proc.devRef .tc main_v68)) (V (Proc.devRef .tc main_arg2)) (V (Proc.devRef .tc main_arg9))
          (V (Proc.devRef .tc main_arg10)) (V (Proc.devRef .tc main_arg11)) (V (Proc.devRef .tc main_arg12)) :=
  (logSoftmax_stage _).trans (congrArg Layers.logSoftmax (logits_stage V))

end Stretches

/-! ## The arguments the closing stretches read are as launched -/

variable (m : (ℓ : Loc nD τ sig) → Buf (Elt Ideal) ℓ) (ρ : Dev nD → PrngReg)

/-- A buffer that no operation of the stretch `ops` writes holds after it what it held before: each operation's written
    buffer is a single reference, different from the one read. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- No operation of the four closing stretches writes argument 2's buffer. -/
theorem W8_main_arg2 (c : Dev nD) : W8 m ρ c (Proc.devRef .tc main_arg2) = m ((c : Thread nD τ).loc main_arg2) :=
  (calc W12 m ρ c (Proc.devRef .tc main_arg2)
    _ = W11 m ρ c (Proc.devRef .tc main_arg2) := by unwritten hostOps4_3
    _ = W10 m ρ c (Proc.devRef .tc main_arg2) := by unwritten hostOps4_2
    _ = W9 m ρ c (Proc.devRef .tc main_arg2) := by unwritten hostOps4_1
    _ = W8 m ρ c (Proc.devRef .tc main_arg2) := by unwritten hostOps4).symm.trans (W12_main_arg2 m ρ c)

/-- No operation of the four closing stretches writes argument 9's buffer. -/
theorem W8_main_arg9 (c : Dev nD) : W8 m ρ c (Proc.devRef .tc main_arg9) = m ((c : Thread nD τ).loc main_arg9) :=
  (calc W12 m ρ c (Proc.devRef .tc main_arg9)
    _ = W11 m ρ c (Proc.devRef .tc main_arg9) := by unwritten hostOps4_3
    _ = W10 m ρ c (Proc.devRef .tc main_arg9) := by unwritten hostOps4_2
    _ = W9 m ρ c (Proc.devRef .tc main_arg9) := by unwritten hostOps4_1
    _ = W8 m ρ c (Proc.devRef .tc main_arg9) := by unwritten hostOps4).symm.trans (W12_main_arg9 m ρ c)

/-- No operation of the four closing stretches writes argument 10's buffer. -/
theorem W8_main_arg10 (c : Dev nD) : W8 m ρ c (Proc.devRef .tc main_arg10) = m ((c : Thread nD τ).loc main_arg10) :=
  (calc W12 m ρ c (Proc.devRef .tc main_arg10)
    _ = W11 m ρ c (Proc.devRef .tc main_arg10) := by unwritten hostOps4_3
    _ = W10 m ρ c (Proc.devRef .tc main_arg10) := by unwritten hostOps4_2
    _ = W9 m ρ c (Proc.devRef .tc main_arg10) := by unwritten hostOps4_1
    _ = W8 m ρ c (Proc.devRef .tc main_arg10) := by unwritten hostOps4).symm.trans (W12_main_arg10 m ρ c)

/-- No operation of the four closing stretches writes argument 11's buffer. -/
theorem W8_main_arg11 (c : Dev nD) : W8 m ρ c (Proc.devRef .tc main_arg11) = m ((c : Thread nD τ).loc main_arg11) :=
  (calc W12 m ρ c (Proc.devRef .tc main_arg11)
    _ = W11 m ρ c (Proc.devRef .tc main_arg11) := by unwritten hostOps4_3
    _ = W10 m ρ c (Proc.devRef .tc main_arg11) := by unwritten hostOps4_2
    _ = W9 m ρ c (Proc.devRef .tc main_arg11) := by unwritten hostOps4_1
    _ = W8 m ρ c (Proc.devRef .tc main_arg11) := by unwritten hostOps4).symm.trans (W12_main_arg11 m ρ c)

/-- No operation of the four closing stretches writes argument 12's buffer. -/
theorem W8_main_arg12 (c : Dev nD) : W8 m ρ c (Proc.devRef .tc main_arg12) = m ((c : Thread nD τ).loc main_arg12) :=
  (calc W12 m ρ c (Proc.devRef .tc main_arg12)
    _ = W11 m ρ c (Proc.devRef .tc main_arg12) := by unwritten hostOps4_3
    _ = W10 m ρ c (Proc.devRef .tc main_arg12) := by unwritten hostOps4_2
    _ = W9 m ρ c (Proc.devRef .tc main_arg12) := by unwritten hostOps4_1
    _ = W8 m ρ c (Proc.devRef .tc main_arg12) := by unwritten hostOps4).symm.trans (W12_main_arg12 m ρ c)

/-! ## The result -/

/-- At the last boundary the result buffer holds `Layers.tail` of the last launch's output array as that launch left it
    and of the batch vector and the four readout parameters as launched. -/
theorem W12_v81 (c : Dev nD) :
    W12 (F := Ideal) m ρ c (Proc.devRef .tc main_v81)
      = Layers.tail (W8 (F := Ideal) m ρ c (Proc.devRef .tc main_v68)) (m ((c : Thread nD τ).loc main_arg2))
          (m ((c : Thread nD τ).loc main_arg9)) (m ((c : Thread nD τ).loc main_arg10))
          (m ((c : Thread nD τ).loc main_arg11)) (m ((c : Thread nD τ).loc main_arg12)) :=
  (tail_stage (W8 m ρ c)).trans (by
    rw [W8_main_arg2 m ρ c, W8_main_arg9 m ρ c, W8_main_arg10 m ρ c, W8_main_arg11 m ρ c, W8_main_arg12 m ρ c])

end Cert.KernelIdeal.TailValue

end
-- ==== Proof.Spec.lean ====
/-
  The layers of the network as plain functions of arrays of extended reals, read one entry at a time.

  A dense layer `lin x w b` sends a matrix `x` of `n` rows to `x · w + b`: its entry in row `p`, column `q` is
  `∑ j, x[p, j] · w[j, q]` plus `b[q]`, the sum over the whole contracted axis in the commutative monoid of the
  extended reals (so neither the order nor the grouping of the terms matters). `relu x` is `max x 0` entry by entry.
  One message-passing layer applies `relu ∘ lin ∘ relu ∘ lin` to the sum `h + agg` of the node features and their
  neighbourhood aggregate (`mlp`); the first layer of the network is one `lin`.
-/
import Idealize.ShloMosaic.PureOps.Ideal
import Idealize.ShloMosaic.Lib.ValueIdx

noncomputable section

open scoped BigOperators

namespace Cert.Gin

open Idealize.ShloMosaic Idealize.ShloMosaic.ValueIdx

/-- An `n × k` array of extended reals. -/
abbrev Mat (n k : Nat) : Type := (⟨2, ![n, k]⟩ : Shape).Idx → EReal

/-- Entry `(p, q)` of `x · w + b`. -/
def linAt {n k o : Nat} (x : Mat n k) (w : Mat k o) (b : Fin o → EReal) (p : Fin n) (q : Fin o) : EReal :=
  (∑ j : Fin k, x (ix2 p j) * w (ix2 j q)) + b q

/-- The dense layer `x · w + b`, as an array. -/
def lin {n k o : Nat} (x : Mat n k) (w : Mat k o) (b : Fin o → EReal) : Mat n o :=
  fun i => linAt x w b (i 0) (i 1)

theorem lin_ix2 {n k o : Nat} (x : Mat n k) (w : Mat k o) (b : Fin o → EReal) (p : Fin n) (q : Fin o) :
    lin x w b (ix2 p q) = (∑ j : Fin k, x (ix2 p j) * w (ix2 j q)) + b q := rfl

/-- `max x 0`, entry by entry. -/
def relu {n k : Nat} (x : Mat n k) : Mat n k := fun i => max (x i) 0

theorem relu_apply {n k : Nat} (x : Mat n k) (i : (⟨2, ![n, k]⟩ : Shape).Idx) : relu x i = max (x i) 0 := rfl

/-- The entrywise sum of two arrays. -/
def add {n k : Nat} (x y : Mat n k) : Mat n k := fun i => x i + y i

theorem add_apply {n k : Nat} (x y : Mat n k) (i : (⟨2, ![n, k]⟩ : Shape).Idx) : add x y i = x i + y i := rfl

/-- The two-layer perceptron of one message-passing step: `relu (relu (z · w1 + b1) · w2 + b2)`. -/
def mlp {n k o r : Nat} (z : Mat n k) (w1 : Mat k o) (b1 : Fin o → EReal) (w2 : Mat o r) (b2 : Fin r → EReal) : Mat n r :=
  relu (lin (relu (lin z w1 b1)) w2 b2)

/-- Entry `(p, q)` of the perceptron, written out: the inner layer's row `p` is rectified entry by entry before the
    outer contraction. -/
theorem mlp_ix2 {n k o r : Nat} (z : Mat n k) (w1 : Mat k o) (b1 : Fin o → EReal) (w2 : Mat o r) (b2 : Fin r → EReal)
    (p : Fin n) (q : Fin r) :
    mlp z w1 b1 w2 b2 (ix2 p q)
      = max ((∑ l : Fin o, max ((∑ j : Fin k, z (ix2 p j) * w1 (ix2 j l)) + b1 l) 0 * w2 (ix2 l q)) + b2 q) 0 := rfl

end Cert.Gin

end
-- ==== Proof.KBody.lean ====
/-
  The arithmetic of the two kernel bodies at the exact reals, one entry at a time.

  The first kernel multiplies a block of 5000 rows by the whole 128 × 64 weight matrix and adds the bias row: entry
  `(p, q)` of what it stores is `∑ j, x[p, j] · w[j, q] + b[0, q]`. Rounding the operands to bf16 on the way into the
  matrix unit is the identity at the exact reals, and the matrix unit's zero accumulator contributes nothing.
  The message-passing kernel adds the two blocks it loads, applies the first dense layer, rectifies (`max · 0`),
  applies the second dense layer and rectifies again; every step acts row by row, so entry `(p, q)` of the stored block
  depends on row `p` of the two loaded blocks only.
-/
import proofs.«140374_j7997229105403_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- A plain matrix product (rows by contraction times contraction by columns) into the zero accumulator, read at entry
    `(a, b)`, is the sum over the contracted coordinate of the products of the entries. -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- One dense layer followed by rectification, as the message-passing kernel spells it, read at entry `(p, q)`:
    the row `p` of the left operand times column `q` of the weights, plus the bias at `q`, cut off below at `0`. -/
theorem layer_ix2 (X : FVec Ideal S5000x64 .bf16) (W : FVec Ideal S64x64 .bf16) (b : Vec Ideal S1x64 .f32)
    (p : Fin 5000) (q : Fin 64) :
    maximumf
        (addf (matmul dot_S5000x64_S64x64_S5000x64_1_0_0_1_n_n none X W (constant (F := Ideal) S5000x64 .f32 0x00000000#32))
          (broadcastTo S5000x64 (shapeCast S1x64 b Facts₀.shapeCasts_S1x64_S1x64) Facts₀.broadcasts_S1x64_S5000x64))
        (broadcast S5000x64 (Scalar.ofBits (F := Ideal) .f32 0x00000000#32)) (ix2 p q)
      = (max ((∑ j : Fin 64, X (ix2 p j) * W (ix2 j q)) + b (ix2 0 q)) 0 : EReal) := by
  refine (congrArg₂ max (congrArg₂ (· + ·)
    (matmul_zero_ix2 dot_S5000x64_S64x64_S5000x64_1_0_0_1_n_n.wf none X W p q)
    (broadcastTo_1b_ab_apply _ _ p q)) Ideal.ofBits_zero_f32).trans ?_
  rw [shapeCast_self]

/-- Entry `(p, q)` of the first kernel's stored block. -/
theorem pay0_ix2 (v0 : Vec Ideal S5000x128 .f32) (v2 : Vec Ideal S128x64 .f32) (v5 : Vec Ideal S1x64 .f32) (p : Fin 5000) (q : Fin 64) :
    k0_pay1 (F := Ideal) v0 v2 v5 (ix2 p q) = ((∑ j : Fin 128, v0 (ix2 p j) * v2 (ix2 j q)) + v5 (ix2 0 q) : EReal) := by
  unfold k0_pay1
  refine (congrArg₂ (· + ·)
    (matmul_zero_ix2 dot_S5000x128_S128x64_S5000x64_1_0_0_1_n_n.wf none _ _ p q)
    (broadcastTo_1b_ab_apply _ _ p q)).trans ?_
  rw [shapeCast_self]
  rfl

/-- Entry `(p, q)` of the message-passing kernel's stored block (first of the three launches). -/
theorem pay1_ix2 (v0 v2 : Vec Ideal S5000x64 .f32) (v6 : Vec Ideal S64x64 .f32) (v10 : Vec Ideal S1x64 .f32)
    (v17 : Vec Ideal S64x64 .f32) (v21 : Vec Ideal S1x64 .f32) (p : Fin 5000) (q : Fin 64) :
    k1_pay1 (F := Ideal) v0 v2 v6 v10 v17 v21 (ix2 p q)
      = (max ((∑ l : Fin 64, max ((∑ j : Fin 64, (v0 (ix2 p j) + v2 (ix2 p j)) * v6 (ix2 j l)) + v10 (ix2 0 l)) 0 * v17 (ix2 l q)) + v21 (ix2 0 q)) 0 : EReal) := by
  unfold k1_pay1
  refine (layer_ix2 _ _ v21 p q).trans ?_
  refine congrArg (fun t : EReal => max (t + v21 (ix2 0 q)) 0) (Finset.sum_congr rfl fun l _ => ?_)
  refine congrArg₂ (· * ·)
    ((truncf_apply (ψ := .bf16) _ Facts₀.bitsLt_bf16_f32 (ix2 p l)).trans ((layer_ix2 _ _ v10 p l).trans ?_)) ?_
  · simp only [shapeCast_self]
    rfl
  · simp only [shapeCast_self]
    rfl

/-- The same, second launch. -/
theorem pay2_ix2 (v0 v2 : Vec Ideal S5000x64 .f32) (v6 : Vec Ideal S64x64 .f32) (v10 : Vec Ideal S1x64 .f32)
    (v17 : Vec Ideal S64x64 .f32) (v21 : Vec Ideal S1x64 .f32) (p : Fin 5000) (q : Fin 64) :
    k2_pay1 (F := Ideal) v0 v2 v6 v10 v17 v21 (ix2 p q)
      = (max ((∑ l : Fin 64, max ((∑ j : Fin 64, (v0 (ix2 p j) + v2 (ix2 p j)) * v6 (ix2 j l)) + v10 (ix2 0 l)) 0 * v17 (ix2 l q)) + v21 (ix2 0 q)) 0 : EReal) := by
  unfold k2_pay1
  refine (layer_ix2 _ _ v21 p q).trans ?_
  refine congrArg (fun t : EReal => max (t + v21 (ix2 0 q)) 0) (Finset.sum_congr rfl fun l _ => ?_)
  refine congrArg₂ (· * ·)
    ((truncf_apply (ψ := .bf16) _ Facts₀.bitsLt_bf16_f32 (ix2 p l)).trans ((layer_ix2 _ _ v10 p l).trans ?_)) ?_
  · simp only [shapeCast_self]
    rfl
  · simp only [shapeCast_self]
    rfl

/-- The same, third launch. -/
theorem pay3_ix2 (v0 v2 : Vec Ideal S5000x64 .f32) (v6 : Vec Ideal S64x64 .f32) (v10 : Vec Ideal S1x64 .f32)
    (v17 : Vec Ideal S64x64 .f32) (v21 : Vec Ideal S1x64 .f32) (p : Fin 5000) (q : Fin 64) :
    k3_pay1 (F := Ideal) v0 v2 v6 v10 v17 v21 (ix2 p q)
      = (max ((∑ l : Fin 64, max ((∑ j : Fin 64, (v0 (ix2 p j) + v2 (ix2 p j)) * v6 (ix2 j l)) + v10 (ix2 0 l)) 0 * v17 (ix2 l q)) + v21 (ix2 0 q)) 0 : EReal) := by
  unfold k3_pay1
  refine (layer_ix2 _ _ v21 p q).trans ?_
  refine congrArg (fun t : EReal => max (t + v21 (ix2 0 q)) 0) (Finset.sum_congr rfl fun l _ => ?_)
  refine congrArg₂ (· * ·)
    ((truncf_apply (ψ := .bf16) _ Facts₀.bitsLt_bf16_f32 (ix2 p l)).trans ((layer_ix2 _ _ v10 p l).trans ?_)) ?_
  · simp only [shapeCast_self]
    rfl
  · simp only [shapeCast_self]
    rfl

end Cert.KernelIdeal.Body

end
-- ==== Proof.KRegionConv.lean ====
/-
  The three message-passing launches write their output arrays block by block: block `t` holds rows
  `5000·t … 5000·t + 4999`, and the twenty blocks tile the 100000 rows. Entry `(r, q)` of what a launch leaves depends
  only on row `r` of the two arrays it reads block by block and on the whole weight and bias arrays, so the array after
  the launch is the two-layer perceptron of the sum of those two arrays.
-/
import proofs.«140374_j7997229105403_1_alg».proof.Proof.Gen.KernelIdeal.Frame
import proofs.«140374_j7997229105403_1_alg».proof.Proof.Spec
import proofs.«140374_j7997229105403_1_alg».proof.Proof.KBody

noncomputable section

open scoped BigOperators

namespace Cert.KernelIdeal.RegionConv

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Conv1

theorem hz : (![0, 0] : Fin 2 → Nat) = fun _ => 0 := funext fun a => by fin_cases a <;> rfl

/-- Entry `(p, q)` of a stored block, written out, is entry `(P, q)` of the perceptron of the sum of two arrays once
    row `p` of the two loaded blocks is row `P` of those arrays and the loaded weights and bias rows are the arrays'. -/
theorem point_eq (x0 x1 : Vec Ideal S5000x64 .f32) (x2 : Vec Ideal S64x64 .f32) (x3 : Vec Ideal S1x64 .f32)
    (x4 : Vec Ideal S64x64 .f32) (x5 : Vec Ideal S1x64 .f32)
    (a0 a1 : Cert.Gin.Mat 100000 64) (w1 : Cert.Gin.Mat 64 64) (b1 : Cert.Gin.Mat 1 64) (w2 : Cert.Gin.Mat 64 64) (b2 : Cert.Gin.Mat 1 64)
    (P : Fin 100000) (p : Fin 5000) (q : Fin 64) (i : (⟨2, ![100000, 64]⟩ : Shape).Idx)
    (h0 : ∀ j : Fin 64, x0 (ix2 p j) = a0 (ix2 P j)) (h1 : ∀ j : Fin 64, x1 (ix2 p j) = a1 (ix2 P j))
    (h2 : x2 = w1) (h3 : x3 = b1) (h4 : x4 = w2) (h5 : x5 = b2) (hi : i = ix2 P q) :
    (max ((∑ l : Fin 64, max ((∑ j : Fin 64, (x0 (ix2 p j) + x1 (ix2 p j)) * x2 (ix2 j l)) + x3 (ix2 0 l)) 0 * x4 (ix2 l q)) + x5 (ix2 0 q)) 0 : EReal)
      = Cert.Gin.mlp (n := 100000) (k := 64) (o := 64) (r := 64) (Cert.Gin.add a0 a1) w1 (fun q => b1 (ix2 0 q)) w2 (fun q => b2 (ix2 0 q)) i := by
  subst h2 h3 h4 h5 hi
  rw [Cert.Gin.mlp_ix2]
  simp only [h0, h1, Cert.Gin.add_apply]

/-! ## Launch 1 -/

/-- The printed block indices over the twenty points: the two row-blocked inputs and the output sit at block `(t, 0)`,
    the weights and bias rows at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The first row-blocked input's block at point `t` is rows `5000·t … 5000·t + 4999` of its array. -/
theorem iblk1_0_apply (c : Dev nD) (t : Fin cfg1.N) (p : Fin 5000) (j : Fin 64) (k : S100000x64.Idx)
    (hk0 : (k 0).val = 5000 * t.val + p.val) (hk1 : (k 1).val = j.val) :
    (iblk1 V c 0 t : Vec Ideal S5000x64 .f32) (ix2 p j) = (V c main_v5 : S100000x64.Idx → EReal) k := by
  obtain ⟨e00, e01, -⟩ := idx1 t
  unfold iblk1
  rw [View.read_apply]
  show V c main_v5 _ = V c main_v5 _
  congr 1
  funext a
  apply Fin.ext
  match a with
  | ⟨0, _⟩ => show win1_0.index t 0 * 5000 + 1 * p.val = (k 0).val; rw [e00, hk0]; omega
  | ⟨1, _⟩ => show win1_0.index t 1 * 64 + 1 * j.val = (k 1).val; rw [e01, hk1]; omega

/-- The same for the second row-blocked input. -/
theorem iblk1_1_apply (c : Dev nD) (t : Fin cfg1.N) (p : Fin 5000) (j : Fin 64) (k : S100000x64.Idx)
    (hk0 : (k 0).val = 5000 * t.val + p.val) (hk1 : (k 1).val = j.val) :
    (iblk1 V c 1 t : Vec Ideal S5000x64 .f32) (ix2 p j) = (V c main_v15 : S100000x64.Idx → EReal) k := by
  obtain ⟨-, -, e10, e11, -⟩ := idx1 t
  unfold iblk1
  rw [View.read_apply]
  show V c main_v15 _ = V c main_v15 _
  congr 1
  funext a
  apply Fin.ext
  match a with
  | ⟨0, _⟩ => show win1_1.index t 0 * 5000 + 1 * p.val = (k 0).val; rw [e10, hk0]; omega
  | ⟨1, _⟩ => show win1_1.index t 1 * 64 + 1 * j.val = (k 1).val; rw [e11, hk1]; omega

/-- The first weight window's one block is the whole array. -/
theorem iblk1_2_eq (c : Dev nD) (t : Fin cfg1.N) :
    (iblk1 V c 2 t : Vec Ideal S64x64 .f32) = (V c main_v17 : S64x64.Idx → EReal) := by
  obtain ⟨-, -, -, -, e20, e21, -⟩ := idx1 t
  funext x
  unfold iblk1
  rw [View.read_apply]
  show V c main_v17 _ = V c main_v17 _
  congr 1
  funext a
  apply Fin.ext
  match a with
  | ⟨0, _⟩ => show win1_2.index t 0 * 64 + 1 * (x 0).val = (x 0).val; rw [e20]; omega
  | ⟨1, _⟩ => show win1_2.index t 1 * 64 + 1 * (x 1).val = (x 1).val; rw [e21]; omega

/-- The first bias window's one block is the whole row. -/
theorem iblk1_3_eq (c : Dev nD) (t : Fin cfg1.N) :
    (iblk1 V c 3 t : Vec Ideal S1x64 .f32) = (V c main_v24 : S1x64.Idx → EReal) := by
  obtain ⟨-, -, -, -, -, -, e30, e31, -⟩ := idx1 t
  funext x
  unfold iblk1
  rw [View.read_apply]
  show V c main_v24 _ = V c main_v24 _
  congr 1
  funext a
  apply Fin.ext
  match a with
  | ⟨0, _⟩ => show win1_3.index t 0 * 1 + 1 * (x 0).val = (x 0).val; rw [e30]; omega
  | ⟨1, _⟩ => show win1_3.index t 1 * 64 + 1 * (x 1).val = (x 1).val; rw [e31]; omega

/-- The second weight window's one block is the whole array. -/
theorem iblk1_4_eq (c : Dev nD) (t : Fin cfg1.N) :
    (iblk1 V c 4 t : Vec Ideal S64x64 .f32) = (V c main_v21 : S64x64.Idx → EReal) := by
  obtain ⟨-, -, -, -, -, -, -, -, e40, e41, -⟩ := idx1 t
  funext x
  unfold iblk1
  rw [View.read_apply]
  show V c main_v21 _ = V c main_v21 _
  congr 1
  funext a
  apply Fin.ext
  match a with
  | ⟨0, _⟩ => show win1_4.index t 0 * 64 + 1 * (x 0).val = (x 0).val; rw [e40]; omega
  | ⟨1, _⟩ => show win1_4.index t 1 * 64 + 1 * (x 1).val = (x 1).val; rw [e41]; omega

/-- The second bias window's one block is the whole row. -/
theorem iblk1_5_eq (c : Dev nD) (t : Fin cfg1.N) :
    (iblk1 V c 5 t : Vec Ideal S1x64 .f32) = (V c main_v25 : S1x64.Idx → EReal) := by
  obtain ⟨-, -, -, -, -, -, -, -, -, -, e50, e51, -⟩ := idx1 t
  funext x
  unfold iblk1
  rw [View.read_apply]
  show V c main_v25 _ = V c main_v25 _
  congr 1
  funext a
  apply Fin.ext
  match a with
  | ⟨0, _⟩ => show win1_5.index t 0 * 1 + 1 * (x 0).val = (x 0).val; rw [e50]; omega
  | ⟨1, _⟩ => show win1_5.index t 1 * 64 + 1 * (x 1).val = (x 1).val; rw [e51]; omega

/-- What point `t` writes back is block `t` of the perceptron of the sum of the two row-blocked arrays. -/
theorem flushed1_eq (c : Dev nD) (t : Fin cfg1.N) :
    (dat1 (F := Ideal) V c).flushed 6 t = ((cfg1.win 6).blk t).view.read (Elt Ideal)
      (Cert.Gin.mlp (n := 100000) (k := 64) (o := 64) (r := 64) (Cert.Gin.add (V c main_v5) (V c main_v15)) (V c main_v17)
          (fun q => V c main_v24 (ix2 0 q)) (V c main_v21) (fun q => V c main_v25 (ix2 0 q))) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  have ht : t.val < 20 := t.isLt
  have hp : p.val < 5000 := p.isLt
  obtain ⟨-, -, -, -, -, -, -, -, -, -, -, -, e60, e61⟩ := idx1 t
  have hi : ((cfg1.win 6).blk t).view.emb (ix2 p q) = ix2 (⟨5000 * t.val + p.val, by omega⟩ : Fin 100000) q := by
    funext a
    apply Fin.ext
    match a with
    | ⟨0, _⟩ => show win1_6.index t 0 * 5000 + 1 * p.val = 5000 * t.val + p.val; rw [e60]; omega
    | ⟨1, _⟩ => show win1_6.index t 1 * 64 + 1 * q.val = q.val; rw [e61]; omega
  show k1_pay1 (F := Ideal) (iblk1 V c 0 t) (iblk1 V c 1 t) (iblk1 V c 2 t) (iblk1 V c 3 t) (iblk1 V c 4 t) (iblk1 V c 5 t) (ix2 p q)
    = Cert.Gin.mlp (n := 100000) (k := 64) (o := 64) (r := 64) (Cert.Gin.add (V c main_v5) (V c main_v15)) (V c main_v17)
          (fun q => V c main_v24 (ix2 0 q)) (V c main_v21) (fun q => V c main_v25 (ix2 0 q)) (((cfg1.win 6).blk t).view.emb (ix2 p q))
  exact (Body.pay1_ix2 (iblk1 V c 0 t) (iblk1 V c 1 t) (iblk1 V c 2 t) (iblk1 V c 3 t) (iblk1 V c 4 t) (iblk1 V c 5 t) p q).trans
    (point_eq (iblk1 V c 0 t) (iblk1 V c 1 t) (iblk1 V c 2 t) (iblk1 V c 3 t) (iblk1 V c 4 t) (iblk1 V c 5 t)
      (V c main_v5) (V c main_v15) (V c main_v17) (V c main_v24) (V c main_v21) (V c main_v25)
      ⟨5000 * t.val + p.val, by omega⟩ p q (((cfg1.win 6).blk t).view.emb (ix2 p q))
      (fun j => iblk1_0_apply V c t p j _ rfl rfl) (fun j => iblk1_1_apply V c t p j _ rfl rfl)
      (iblk1_2_eq V c t) (iblk1_3_eq V c t) (iblk1_4_eq V c t) (iblk1_5_eq V c t) hi)

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v26).slice (win1_6.rect t)).set ↔ _
  rw [View.set_slice_whole, Rect.mem_set_unit]
  exact Iff.rfl

/-- Row `r` lies in the block of point `r / 5000`, which is written back: the twenty blocks cover the array. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, -, -, -, -, e60, e61⟩ := idx1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; rw [e60, ht]; omega
  | ⟨1, _⟩ => show win1_6.index t (1 : Fin 2) * 64 ≤ (i 1).val ∧ (i 1).val < win1_6.index t (1 : Fin 2) * 64 + 64; rw [e61]; omega

end Conv1

/-- After the second launch its output array is the perceptron of the sum of the two arrays it read block by block. -/
theorem arr1 (c : Dev nD) :
    (dat1 (F := Ideal) V c).arrAt 6 cfg1.N
      = Cert.Gin.mlp (n := 100000) (k := 64) (o := 64) (r := 64) (Cert.Gin.add (V c main_v5) (V c main_v15)) (V c main_v17)
          (fun q => V c main_v24 (ix2 0 q)) (V c main_v21) (fun q => V c main_v25 (ix2 0 q)) :=
  (dat1 (F := Ideal) V c).arrAt_eq_of_cover 6 _ (fun t _ => Conv1.flushed1_eq V c t) (fun i => Conv1.cover1 i)

end Cert.KernelIdeal.RegionConv

end
-- ==== Proof.KRegionConv2.lean ====
/-
  The three message-passing launches write their output arrays block by block: block `t` holds rows
  `5000·t … 5000·t + 4999`, and the twenty blocks tile the 100000 rows. Entry `(r, q)` of what a launch leaves depends
  only on row `r` of the two arrays it reads block by block and on the whole weight and bias arrays, so the array after
  the launch is the two-layer perceptron of the sum of those two arrays.
-/
import proofs.«140374_j7997229105403_1_alg».proof.Proof.Gen.KernelIdeal.Frame
import proofs.«140374_j7997229105403_1_alg».proof.Proof.Spec
import proofs.«140374_j7997229105403_1_alg».proof.Proof.KBody

noncomputable section

open scoped BigOperators

namespace Cert.KernelIdeal.RegionConv2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Conv2

theorem hz : (![0, 0] : Fin 2 → Nat) = fun _ => 0 := funext fun a => by fin_cases a <;> rfl

/-- Entry `(p, q)` of a stored block, written out, is entry `(P, q)` of the perceptron of the sum of two arrays once
    row `p` of the two loaded blocks is row `P` of those arrays and the loaded weights and bias rows are the arrays'. -/
theorem point_eq (x0 x1 : Vec Ideal S5000x64 .f32) (x2 : Vec Ideal S64x64 .f32) (x3 : Vec Ideal S1x64 .f32)
    (x4 : Vec Ideal S64x64 .f32) (x5 : Vec Ideal S1x64 .f32)
    (a0 a1 : Cert.Gin.Mat 100000 64) (w1 : Cert.Gin.Mat 64 64) (b1 : Cert.Gin.Mat 1 64) (w2 : Cert.Gin.Mat 64 64) (b2 : Cert.Gin.Mat 1 64)
    (P : Fin 100000) (p : Fin 5000) (q : Fin 64) (i : (⟨2, ![100000, 64]⟩ : Shape).Idx)
    (h0 : ∀ j : Fin 64, x0 (ix2 p j) = a0 (ix2 P j)) (h1 : ∀ j : Fin 64, x1 (ix2 p j) = a1 (ix2 P j))
    (h2 : x2 = w1) (h3 : x3 = b1) (h4 : x4 = w2) (h5 : x5 = b2) (hi : i = ix2 P q) :
    (max ((∑ l : Fin 64, max ((∑ j : Fin 64, (x0 (ix2 p j) + x1 (ix2 p j)) * x2 (ix2 j l)) + x3 (ix2 0 l)) 0 * x4 (ix2 l q)) + x5 (ix2 0 q)) 0 : EReal)
      = Cert.Gin.mlp (n := 100000) (k := 64) (o := 64) (r := 64) (Cert.Gin.add a0 a1) w1 (fun q => b1 (ix2 0 q)) w2 (fun q => b2 (ix2 0 q)) i := by
  subst h2 h3 h4 h5 hi
  rw [Cert.Gin.mlp_ix2]
  simp only [h0, h1, Cert.Gin.add_apply]

/-! ## Launch 2 -/

/-- The printed block indices over the twenty points: the two row-blocked inputs and the output sit at block `(t, 0)`,
    the weights and bias rows at block `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The first row-blocked input's block at point `t` is rows `5000·t … 5000·t + 4999` of its array. -/
theorem iblk2_0_apply (c : Dev nD) (t : Fin cfg2.N) (p : Fin 5000) (j : Fin 64) (k : S100000x64.Idx)
    (hk0 : (k 0).val = 5000 * t.val + p.val) (hk1 : (k 1).val = j.val) :
    (iblk2 V c 0 t : Vec Ideal S5000x64 .f32) (ix2 p j) = (V c main_v26 : S100000x64.Idx → EReal) k := by
  obtain ⟨e00, e01, -⟩ := idx2 t
  unfold iblk2
  rw [View.read_apply]
  show V c main_v26 _ = V c main_v26 _
  congr 1
  funext a
  apply Fin.ext
  match a with
  | ⟨0, _⟩ => show win2_0.index t 0 * 5000 + 1 * p.val = (k 0).val; rw [e00, hk0]; omega
  | ⟨1, _⟩ => show win2_0.index t 1 * 64 + 1 * j.val = (k 1).val; rw [e01, hk1]; omega

/-- The same for the second row-blocked input. -/
theorem iblk2_1_apply (c : Dev nD) (t : Fin cfg2.N) (p : Fin 5000) (j : Fin 64) (k : S100000x64.Idx)
    (hk0 : (k 0).val = 5000 * t.val + p.val) (hk1 : (k 1).val = j.val) :
    (iblk2 V c 1 t : Vec Ideal S5000x64 .f32) (ix2 p j) = (V c main_v36 : S100000x64.Idx → EReal) k := by
  obtain ⟨-, -, e10, e11, -⟩ := idx2 t
  unfold iblk2
  rw [View.read_apply]
  show V c main_v36 _ = V c main_v36 _
  congr 1
  funext a
  apply Fin.ext
  match a with
  | ⟨0, _⟩ => show win2_1.index t 0 * 5000 + 1 * p.val = (k 0).val; rw [e10, hk0]; omega
  | ⟨1, _⟩ => show win2_1.index t 1 * 64 + 1 * j.val = (k 1).val; rw [e11, hk1]; omega

/-- The first weight window's one block is the whole array. -/
theorem iblk2_2_eq (c : Dev nD) (t : Fin cfg2.N) :
    (iblk2 V c 2 t : Vec Ideal S64x64 .f32) = (V c main_v38 : S64x64.Idx → EReal) := by
  obtain ⟨-, -, -, -, e20, e21, -⟩ := idx2 t
  funext x
  unfold iblk2
  rw [View.read_apply]
  show V c main_v38 _ = V c main_v38 _
  congr 1
  funext a
  apply Fin.ext
  match a with
  | ⟨0, _⟩ => show win2_2.index t 0 * 64 + 1 * (x 0).val = (x 0).val; rw [e20]; omega
  | ⟨1, _⟩ => show win2_2.index t 1 * 64 + 1 * (x 1).val = (x 1).val; rw [e21]; omega

/-- The first bias window's one block is the whole row. -/
theorem iblk2_3_eq (c : Dev nD) (t : Fin cfg2.N) :
    (iblk2 V c 3 t : Vec Ideal S1x64 .f32) = (V c main_v45 : S1x64.Idx → EReal) := by
  obtain ⟨-, -, -, -, -, -, e30, e31, -⟩ := idx2 t
  funext x
  unfold iblk2
  rw [View.read_apply]
  show V c main_v45 _ = V c main_v45 _
  congr 1
  funext a
  apply Fin.ext
  match a with
  | ⟨0, _⟩ => show win2_3.index t 0 * 1 + 1 * (x 0).val = (x 0).val; rw [e30]; omega
  | ⟨1, _⟩ => show win2_3.index t 1 * 64 + 1 * (x 1).val = (x 1).val; rw [e31]; omega

/-- The second weight window's one block is the whole array. -/
theorem iblk2_4_eq (c : Dev nD) (t : Fin cfg2.N) :
    (iblk2 V c 4 t : Vec Ideal S64x64 .f32) = (V c main_v42 : S64x64.Idx → EReal) := by
  obtain ⟨-, -, -, -, -, -, -, -, e40, e41, -⟩ := idx2 t
  funext x
  unfold iblk2
  rw [View.read_apply]
  show V c main_v42 _ = V c main_v42 _
  congr 1
  funext a
  apply Fin.ext
  match a with
  | ⟨0, _⟩ => show win2_4.index t 0 * 64 + 1 * (x 0).val = (x 0).val; rw [e40]; omega
  | ⟨1, _⟩ => show win2_4.index t 1 * 64 + 1 * (x 1).val = (x 1).val; rw [e41]; omega

/-- The second bias window's one block is the whole row. -/
theorem iblk2_5_eq (c : Dev nD) (t : Fin cfg2.N) :
    (iblk2 V c 5 t : Vec Ideal S1x64 .f32) = (V c main_v46 : S1x64.Idx → EReal) := by
  obtain ⟨-, -, -, -, -, -, -, -, -, -, e50, e51, -⟩ := idx2 t
  funext x
  unfold iblk2
  rw [View.read_apply]
  show V c main_v46 _ = V c main_v46 _
  congr 1
  funext a
  apply Fin.ext
  match a with
  | ⟨0, _⟩ => show win2_5.index t 0 * 1 + 1 * (x 0).val = (x 0).val; rw [e50]; omega
  | ⟨1, _⟩ => show win2_5.index t 1 * 64 + 1 * (x 1).val = (x 1).val; rw [e51]; omega

/-- What point `t` writes back is block `t` of the perceptron of the sum of the two row-blocked arrays. -/
theorem flushed2_eq (c : Dev nD) (t : Fin cfg2.N) :
    (dat2 (F := Ideal) V c).flushed 6 t = ((cfg2.win 6).blk t).view.read (Elt Ideal)
      (Cert.Gin.mlp (n := 100000) (k := 64) (o := 64) (r := 64) (Cert.Gin.add (V c main_v26) (V c main_v36)) (V c main_v38)
          (fun q => V c main_v45 (ix2 0 q)) (V c main_v42) (fun q => V c main_v46 (ix2 0 q))) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  have ht : t.val < 20 := t.isLt
  have hp : p.val < 5000 := p.isLt
  obtain ⟨-, -, -, -, -, -, -, -, -, -, -, -, e60, e61⟩ := idx2 t
  have hi : ((cfg2.win 6).blk t).view.emb (ix2 p q) = ix2 (⟨5000 * t.val + p.val, by omega⟩ : Fin 100000) q := by
    funext a
    apply Fin.ext
    match a with
    | ⟨0, _⟩ => show win2_6.index t 0 * 5000 + 1 * p.val = 5000 * t.val + p.val; rw [e60]; omega
    | ⟨1, _⟩ => show win2_6.index t 1 * 64 + 1 * q.val = q.val; rw [e61]; omega
  show k2_pay1 (F := Ideal) (iblk2 V c 0 t) (iblk2 V c 1 t) (iblk2 V c 2 t) (iblk2 V c 3 t) (iblk2 V c 4 t) (iblk2 V c 5 t) (ix2 p q)
    = Cert.Gin.mlp (n := 100000) (k := 64) (o := 64) (r := 64) (Cert.Gin.add (V c main_v26) (V c main_v36)) (V c main_v38)
          (fun q => V c main_v45 (ix2 0 q)) (V c main_v42) (fun q => V c main_v46 (ix2 0 q)) (((cfg2.win 6).blk t).view.emb (ix2 p q))
  exact (Body.pay2_ix2 (iblk2 V c 0 t) (iblk2 V c 1 t) (iblk2 V c 2 t) (iblk2 V c 3 t) (iblk2 V c 4 t) (iblk2 V c 5 t) p q).trans
    (point_eq (iblk2 V c 0 t) (iblk2 V c 1 t) (iblk2 V c 2 t) (iblk2 V c 3 t) (iblk2 V c 4 t) (iblk2 V c 5 t)
      (V c main_v26) (V c main_v36) (V c main_v38) (V c main_v45) (V c main_v42) (V c main_v46)
      ⟨5000 * t.val + p.val, by omega⟩ p q (((cfg2.win 6).blk t).view.emb (ix2 p q))
      (fun j => iblk2_0_apply V c t p j _ rfl rfl) (fun j => iblk2_1_apply V c t p j _ rfl rfl)
      (iblk2_2_eq V c t) (iblk2_3_eq V c t) (iblk2_4_eq V c t) (iblk2_5_eq V c t) hi)

/-- An index of the output array is in point `t`'s block iff each coordinate is in the block's range on its axis. -/
theorem mem_blk2 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v47).slice (win2_6.rect t)).set ↔ _
  rw [View.set_slice_whole, Rect.mem_set_unit]
  exact Iff.rfl

/-- Row `r` lies in the block of point `r / 5000`, which is written back: the twenty blocks cover the array. -/
theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, -, -, -, -, -, -, -, -, e60, e61⟩ := idx2 t
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [e60, ht]; omega
  | ⟨1, _⟩ => show win2_6.index t (1 : Fin 2) * 64 ≤ (i 1).val ∧ (i 1).val < win2_6.index t (1 : Fin 2) * 64 + 64; rw [e61]; omega

end Conv2

/-- After the third launch its output array is the perceptron of the sum of the two arrays it read block by block. -/
theorem arr2 (c : Dev nD) :
    (dat2 (F := Ideal) V c).arrAt 6 cfg2.N
      = Cert.Gin.mlp (n := 100000) (k := 64) (o := 64) (r := 64) (Cert.Gin.add (V c main_v26) (V c main_v36)) (V c main_v38)
          (fun q => V c main_v45 (ix2 0 q)) (V c main_v42) (fun q => V c main_v46 (ix2 0 q)) :=
  (dat2 (F := Ideal) V c).arrAt_eq_of_cover 6 _ (fun t _ => Conv2.flushed2_eq V c t) (fun i => Conv2.cover2 i)

end Cert.KernelIdeal.RegionConv2

end
-- ==== Proof.KRegionConv3.lean ====
/-
  The three message-passing launches write their output arrays block by block: block `t` holds rows
  `5000·t … 5000·t + 4999`, and the twenty blocks tile the 100000 rows. Entry `(r, q)` of what a launch leaves depends
  only on row `r` of the two arrays it reads block by block and on the whole weight and bias arrays, so the array after
  the launch is the two-layer perceptron of the sum of those two arrays.
-/
import proofs.«140374_j7997229105403_1_alg».proof.Proof.Gen.KernelIdeal.Frame
import proofs.«140374_j7997229105403_1_alg».proof.Proof.Spec
import proofs.«140374_j7997229105403_1_alg».proof.Proof.KBody

noncomputable section

open scoped BigOperators

namespace Cert.KernelIdeal.RegionConv3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Conv3

theorem hz : (![0, 0] : Fin 2 → Nat) = fun _ => 0 := funext fun a => by fin_cases a <;> rfl

/-- Entry `(p, q)` of a stored block, written out, is entry `(P, q)` of the perceptron of the sum of two arrays once
    row `p` of the two loaded blocks is row `P` of those arrays and the loaded weights and bias rows are the arrays'. -/
theorem point_eq (x0 x1 : Vec Ideal S5000x64 .f32) (x2 : Vec Ideal S64x64 .f32) (x3 : Vec Ideal S1x64 .f32)
    (x4 : Vec Ideal S64x64 .f32) (x5 : Vec Ideal S1x64 .f32)
    (a0 a1 : Cert.Gin.Mat 100000 64) (w1 : Cert.Gin.Mat 64 64) (b1 : Cert.Gin.Mat 1 64) (w2 : Cert.Gin.Mat 64 64) (b2 : Cert.Gin.Mat 1 64)
    (P : Fin 100000) (p : Fin 5000) (q : Fin 64) (i : (⟨2, ![100000, 64]⟩ : Shape).Idx)
    (h0 : ∀ j : Fin 64, x0 (ix2 p j) = a0 (ix2 P j)) (h1 : ∀ j : Fin 64, x1 (ix2 p j) = a1 (ix2 P j))
    (h2 : x2 = w1) (h3 : x3 = b1) (h4 : x4 = w2) (h5 : x5 = b2) (hi : i = ix2 P q) :
    (max ((∑ l : Fin 64, max ((∑ j : Fin 64, (x0 (ix2 p j) + x1 (ix2 p j)) * x2 (ix2 j l)) + x3 (ix2 0 l)) 0 * x4 (ix2 l q)) + x5 (ix2 0 q)) 0 : EReal)
      = Cert.Gin.mlp (n := 100000) (k := 64) (o := 64) (r := 64) (Cert.Gin.add a0 a1) w1 (fun q => b1 (ix2 0 q)) w2 (fun q => b2 (ix2 0 q)) i := by
  subst h2 h3 h4 h5 hi
  rw [Cert.Gin.mlp_ix2]
  simp only [h0, h1, Cert.Gin.add_apply]

/-! ## Launch 3 -/

/-- The printed block indices over the twenty points: the two row-blocked inputs and the output sit at block `(t, 0)`,
    the weights and bias rows at block `(0, 0)`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The first row-blocked input's block at point `t` is rows `5000·t … 5000·t + 4999` of its array. -/
theorem iblk3_0_apply (c : Dev nD) (t : Fin cfg3.N) (p : Fin 5000) (j : Fin 64) (k : S100000x64.Idx)
    (hk0 : (k 0).val = 5000 * t.val + p.val) (hk1 : (k 1).val = j.val) :
    (iblk3 V c 0 t : Vec Ideal S5000x64 .f32) (ix2 p j) = (V c main_v47 : S100000x64.Idx → EReal) k := by
  obtain ⟨e00, e01, -⟩ := idx3 t
  unfold iblk3
  rw [View.read_apply]
  show V c main_v47 _ = V c main_v47 _
  congr 1
  funext a
  apply Fin.ext
  match a with
  | ⟨0, _⟩ => show win3_0.index t 0 * 5000 + 1 * p.val = (k 0).val; rw [e00, hk0]; omega
  | ⟨1, _⟩ => show win3_0.index t 1 * 64 + 1 * j.val = (k 1).val; rw [e01, hk1]; omega

/-- The same for the second row-blocked input. -/
theorem iblk3_1_apply (c : Dev nD) (t : Fin cfg3.N) (p : Fin 5000) (j : Fin 64) (k : S100000x64.Idx)
    (hk0 : (k 0).val = 5000 * t.val + p.val) (hk1 : (k 1).val = j.val) :
    (iblk3 V c 1 t : Vec Ideal S5000x64 .f32) (ix2 p j) = (V c main_v57 : S100000x64.Idx → EReal) k := by
  obtain ⟨-, -, e10, e11, -⟩ := idx3 t
  unfold iblk3
  rw [View.read_apply]
  show V c main_v57 _ = V c main_v57 _
  congr 1
  funext a
  apply Fin.ext
  match a with
  | ⟨0, _⟩ => show win3_1.index t 0 * 5000 + 1 * p.val = (k 0).val; rw [e10, hk0]; omega
  | ⟨1, _⟩ => show win3_1.index t 1 * 64 + 1 * j.val = (k 1).val; rw [e11, hk1]; omega

/-- The first weight window's one block is the whole array. -/
theorem iblk3_2_eq (c : Dev nD) (t : Fin cfg3.N) :
    (iblk3 V c 2 t : Vec Ideal S64x64 .f32) = (V c main_v59 : S64x64.Idx → EReal) := by
  obtain ⟨-, -, -, -, e20, e21, -⟩ := idx3 t
  funext x
  unfold iblk3
  rw [View.read_apply]
  show V c main_v59 _ = V c main_v59 _
  congr 1
  funext a
  apply Fin.ext
  match a with
  | ⟨0, _⟩ => show win3_2.index t 0 * 64 + 1 * (x 0).val = (x 0).val; rw [e20]; omega
  | ⟨1, _⟩ => show win3_2.index t 1 * 64 + 1 * (x 1).val = (x 1).val; rw [e21]; omega

/-- The first bias window's one block is the whole row. -/
theorem iblk3_3_eq (c : Dev nD) (t : Fin cfg3.N) :
    (iblk3 V c 3 t : Vec Ideal S1x64 .f32) = (V c main_v66 : S1x64.Idx → EReal) := by
  obtain ⟨-, -, -, -, -, -, e30, e31, -⟩ := idx3 t
  funext x
  unfold iblk3
  rw [View.read_apply]
  show V c main_v66 _ = V c main_v66 _
  congr 1
  funext a
  apply Fin.ext
  match a with
  | ⟨0, _⟩ => show win3_3.index t 0 * 1 + 1 * (x 0).val = (x 0).val; rw [e30]; omega
  | ⟨1, _⟩ => show win3_3.index t 1 * 64 + 1 * (x 1).val = (x 1).val; rw [e31]; omega

/-- The second weight window's one block is the whole array. -/
theorem iblk3_4_eq (c : Dev nD) (t : Fin cfg3.N) :
    (iblk3 V c 4 t : Vec Ideal S64x64 .f32) = (V c main_v63 : S64x64.Idx → EReal) := by
  obtain ⟨-, -, -, -, -, -, -, -, e40, e41, -⟩ := idx3 t
  funext x
  unfold iblk3
  rw [View.read_apply]
  show V c main_v63 _ = V c main_v63 _
  congr 1
  funext a
  apply Fin.ext
  match a with
  | ⟨0, _⟩ => show win3_4.index t 0 * 64 + 1 * (x 0).val = (x 0).val; rw [e40]; omega
  | ⟨1, _⟩ => show win3_4.index t 1 * 64 + 1 * (x 1).val = (x 1).val; rw [e41]; omega

/-- The second bias window's one block is the whole row. -/
theorem iblk3_5_eq (c : Dev nD) (t : Fin cfg3.N) :
    (iblk3 V c 5 t : Vec Ideal S1x64 .f32) = (V c main_v67 : S1x64.Idx → EReal) := by
  obtain ⟨-, -, -, -, -, -, -, -, -, -, e50, e51, -⟩ := idx3 t
  funext x
  unfold iblk3
  rw [View.read_apply]
  show V c main_v67 _ = V c main_v67 _
  congr 1
  funext a
  apply Fin.ext
  match a with
  | ⟨0, _⟩ => show win3_5.index t 0 * 1 + 1 * (x 0).val = (x 0).val; rw [e50]; omega
  | ⟨1, _⟩ => show win3_5.index t 1 * 64 + 1 * (x 1).val = (x 1).val; rw [e51]; omega

/-- What point `t` writes back is block `t` of the perceptron of the sum of the two row-blocked arrays. -/
theorem flushed3_eq (c : Dev nD) (t : Fin cfg3.N) :
    (dat3 (F := Ideal) V c).flushed 6 t = ((cfg3.win 6).blk t).view.read (Elt Ideal)
      (Cert.Gin.mlp (n := 100000) (k := 64) (o := 64) (r := 64) (Cert.Gin.add (V c main_v47) (V c main_v57)) (V c main_v59)
          (fun q => V c main_v66 (ix2 0 q)) (V c main_v63) (fun q => V c main_v67 (ix2 0 q))) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x64) hz, View.ld_unit_zero (S := S1x64) hz]
  funext y
  obtain ⟨p, q, rfl⟩ : ∃ (p : Fin 5000) (q : Fin 64), y = ix2 p q := ⟨y 0, y 1, eq_ix2 y⟩
  have ht : t.val < 20 := t.isLt
  have hp : p.val < 5000 := p.isLt
  obtain ⟨-, -, -, -, -, -, -, -, -, -, -, -, e60, e61⟩ := idx3 t
  have hi : ((cfg3.win 6).blk t).view.emb (ix2 p q) = ix2 (⟨5000 * t.val + p.val, by omega⟩ : Fin 100000) q := by
    funext a
    apply Fin.ext
    match a with
    | ⟨0, _⟩ => show win3_6.index t 0 * 5000 + 1 * p.val = 5000 * t.val + p.val; rw [e60]; omega
    | ⟨1, _⟩ => show win3_6.index t 1 * 64 + 1 * q.val = q.val; rw [e61]; omega
  show k3_pay1 (F := Ideal) (iblk3 V c 0 t) (iblk3 V c 1 t) (iblk3 V c 2 t) (iblk3 V c 3 t) (iblk3 V c 4 t) (iblk3 V c 5 t) (ix2 p q)
    = Cert.Gin.mlp (n := 100000) (k := 64) (o := 64) (r := 64) (Cert.Gin.add (V c main_v47) (V c main_v57)) (V c main_v59)
          (fun q => V c main_v66 (ix2 0 q)) (V c main_v63) (fun q => V c main_v67 (ix2 0 q)) (((cfg3.win 6).blk t).view.emb (ix2 p q))
  exact (Body.pay3_ix2 (iblk3 V c 0 t) (iblk3 V c 1 t) (iblk3 V c 2 t) (iblk3 V c 3 t) (iblk3 V c 4 t) (iblk3 V c 5 t) p q).trans
    (point_eq (iblk3 V c 0 t) (iblk3 V c 1 t) (iblk3 V c 2 t) (iblk3 V c 3 t) (iblk3 V c 4 t) (iblk3 V c 5 t)
      (V c main_v47) (V c main_v57) (V c main_v59) (V c main_v66) (V c main_v63) (V c main_v67)
      ⟨5000 * t.val + p.val, by omega⟩ p q (((cfg3.win 6).blk t).view.emb (ix2 p q))
      (fun j => iblk3_0_apply V c t p j _ rfl rfl) (fun j => iblk3_1_apply V c t p j _ rfl rfl)
      (iblk3_2_eq V c t) (iblk3_3_eq V c t) (iblk3_4_eq V c t) (iblk3_5_eq V c t) hi)

/-- An index of the output array is in point `t`'s block iff each coordinate is in the block's range on its axis. -/
theorem mem_blk3 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v68).slice (win3_6.rect t)).set ↔ _
  rw [View.set_slice_whole, Rect.mem_set_unit]
  exact Iff.rfl

/-- Row `r` lies in the block of point `r / 5000`, which is written back: the twenty blocks cover the array. -/
theorem cover3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨-, -, -, -, -, -, -, -, -, -, -, -, e60, e61⟩ := idx3 t
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; rw [e60, ht]; omega
  | ⟨1, _⟩ => show win3_6.index t (1 : Fin 2) * 64 ≤ (i 1).val ∧ (i 1).val < win3_6.index t (1 : Fin 2) * 64 + 64; rw [e61]; omega

end Conv3

/-- After the fourth launch its output array is the perceptron of the sum of the two arrays it read block by block. -/
theorem arr3 (c : Dev nD) :
    (dat3 (F := Ideal) V c).arrAt 6 cfg3.N
      = Cert.Gin.mlp (n := 100000) (k := 64) (o := 64) (r := 64) (Cert.Gin.add (V c main_v47) (V c main_v57)) (V c main_v59)
          (fun q => V c main_v66 (ix2 0 q)) (V c main_v63) (fun q => V c main_v67 (ix2 0 q)) :=
  (dat3 (F := Ideal) V c).arrAt_eq_of_cover 6 _ (fun t _ => Conv3.flushed3_eq V c t) (fun i => Conv3.cover3 i)

end Cert.KernelIdeal.RegionConv3

end
-- ==== Proof.KRegion.lean ====
/-
  Each launch writes its output array block by block; block `t` holds rows `5000·t … 5000·t + 4999`, and the twenty
  blocks tile the 100000 rows. What a launch leaves in row `r` depends only on row `r` of the arrays it reads block by
  block and on the whole weight and bias arrays, so the array after the launch is one function of the arrays the launch
  finds: the dense layer for the first launch, the two-layer perceptron of `h + agg` for the other three.
-/
import proofs.«140374_j7997229105403_1_alg».proof.Proof.Gen.KernelIdeal.Frame
import proofs.«140374_j7997229105403_1_alg».proof.Proof.Spec
import proofs.«140374_j7997229105403_1_alg».proof.Proof.KBody
import proofs.«140374_j7997229105403_1_alg».proof.Proof.KRegionConv
import proofs.«140374_j7997229105403_1_alg».proof.Proof.KRegionConv2
import proofs.«140374_j7997229105403_1_alg».proof.Proof.KRegionConv3

noncomputable section

open scoped BigOperators

namespace Cert.KernelIdeal.Region

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Dense

theorem hz : (![0, 0] : Fin 2 → Nat) = fun _ => 0 := funext fun a => by fin_cases a <;> rfl

/-! ## The first launch -/

/-- The printed index maps over the twenty grid points: the row-block windows (the input rows and the output) sit at
    block `(t, 0)`, the weight and bias windows at block `(0, 0)`. -/
theorem idx0 : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = t.val ∧ win0_3.index t (1 : Fin 2) = 0 :=
  (by decide +kernel : ∀ t : Fin grid0.N, _)

theorem lt0 (t : Fin cfg0.N) : t.val < 20 := lt_of_lt_of_eq t.isLt N_0

/-- One entry of the stored block is the dense layer's entry at the row the block's row sits at, once the loaded
    blocks are identified with the arrays. -/
theorem point0 (x : Cert.Gin.Mat 100000 128) (w : Cert.Gin.Mat 128 64) (b : Cert.Gin.Mat 1 64)
    (v0 : Vec Ideal S5000x128 .f32) (v2 : Vec Ideal S128x64 .f32) (v5 : Vec Ideal S1x64 .f32)
    (r : Fin 100000) (p : Fin 5000) (q : Fin 64)
    (h0 : ∀ j : Fin 128, v0 (ix2 p j) = x (ix2 r j))
    (h2 : ∀ (j : Fin 128) (l : Fin 64), v2 (ix2 j l) = w (ix2 j l))
    (h5 : ∀ l : Fin 64, v5 (ix2 0 l) = b (ix2 0 l)) :
    k0_pay1 (F := Ideal) v0 v2 v5 (ix2 p q) = Cert.Gin.lin x w (fun l => b (ix2 0 l)) (ix2 r q) := by
  rw [Body.pay0_ix2, Cert.Gin.lin_ix2]
  simp only [h0, h2, h5]

set_option maxHeartbeats 400000 in
/-- Row `p` of the input block at point `t` is row `5000 t + p` of the input array. -/
theorem iblk0_0_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → EReal) i := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

set_option maxHeartbeats 400000 in
/-- The weight block is the whole weight array. -/
theorem iblk0_1_apply (c : Dev nD) (t : Fin cfg0.N) (y : S128x64.Idx) :
    (iblk0 V c 1 t : Vec Ideal S128x64 .f32) y = (V c main_arg3 : S128x64.Idx → EReal) y := by
  obtain ⟨-, -, e0, e1, -⟩ := idx0 t
  unfold iblk0
  rw [View.read_apply]
  show V c main_arg3 _ = V c main_arg3 _
  refine congrArg (V c main_arg3) ?_
  funext a
  apply Fin.ext
  match a with
  | ⟨0, _⟩ => show win0_1.index t 0 * 128 + 1 * (y 0).val = (y 0).val; rw [e0]; omega
  | ⟨1, _⟩ => show win0_1.index t 1 * 64 + 1 * (y 1).val = (y 1).val; rw [e1]; omega

set_option maxHeartbeats 400000 in
/-- The bias block is the whole bias row. -/
theorem iblk0_2_apply (c : Dev nD) (t : Fin cfg0.N) (y : S1x64.Idx) :
    (iblk0 V c 2 t : Vec Ideal S1x64 .f32) y = (V c main_v4 : S1x64.Idx → EReal) y := by
  obtain ⟨-, -, -, -, e0, e1, -⟩ := idx0 t
  unfold iblk0
  rw [View.read_apply]
  show V c main_v4 _ = V c main_v4 _
  refine congrArg (V c main_v4) ?_
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

set_option maxHeartbeats 400000 in
/-- Where entry `(p, q)` of the output block at point `t` sits in the output array. -/
theorem emb0 (t : Fin cfg0.N) (p : Fin 5000) (q : Fin 64) :
    ((cfg0.win 3).blk t).view.emb (ix2 p q) = (ix2 (⟨t.val * 5000 + p.val, by have := lt0 t; omega⟩ : Fin 100000) q : S100000x64.Idx) := by
  obtain ⟨-, -, -, -, -, -, e0, e1⟩ := idx0 t
  funext a
  apply Fin.ext
  match a with
  | ⟨0, _⟩ => show win0_3.index t 0 * 5000 + 1 * p.val = t.val * 5000 + p.val; rw [e0]; omega
  | ⟨1, _⟩ => show win0_3.index t 1 * 64 + 1 * q.val = q.val; rw [e1]; omega

set_option maxHeartbeats 400000 in
/-- What point `t` writes back is block `t` of the dense layer of the arrays. -/
theorem flushed0 (c : Dev nD) (t : Fin cfg0.N) :
    (dat0 (F := Ideal) V c).flushed 3 t = ((cfg0.win 3).blk t).view.read (Elt Ideal)
      (Cert.Gin.lin (n := 100000) (k := 128) (o := 64) (V c main_arg0) (V c main_arg3) (fun q => V c main_v4 (ix2 0 q))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  funext y
  obtain ⟨p, q, rfl⟩ : ∃ (p : Fin 5000) (q : Fin 64), y = ix2 p q := ⟨y 0, y 1, eq_ix2 y⟩
  rw [View.read_apply, emb0 t p q]
  exact point0 (V c main_arg0) (V c main_arg3) (V c main_v4) (iblk0 V c 0 t) (iblk0 V c 1 t) (iblk0 V c 2 t)
    ⟨t.val * 5000 + p.val, by have := lt0 t; omega⟩ p q
    (fun j => iblk0_0_apply V c t (ix2 p j) (ix2 _ j) rfl rfl)
    (fun j l => iblk0_1_apply V c t (ix2 j l))
    (fun l => iblk0_2_apply V c t (ix2 0 l))

set_option maxHeartbeats 400000 in
/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

set_option maxHeartbeats 400000 in
/-- Row `r` of the output array lies in the block of point `r / 5000`: the twenty blocks tile the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, e0, e1⟩ := idx0 t
  refine ⟨t, flush0_3 t, ?_⟩
  rw [mem_blk0]
  intro a
  match a with
  | ⟨0, _⟩ => show win0_3.index t 0 * 5000 ≤ (i 0).val ∧ (i 0).val < win0_3.index t 0 * 5000 + 5000; rw [e0, ht]; omega
  | ⟨1, _⟩ => show win0_3.index t 1 * 64 ≤ (i 1).val ∧ (i 1).val < win0_3.index t 1 * 64 + 64; rw [e1]; omega

end Dense

/-- After the first launch its output array is the dense layer of the arrays it found. -/
theorem arr0 (c : Dev nD) :
    (dat0 (F := Ideal) V c).arrAt 3 cfg0.N
      = Cert.Gin.lin (n := 100000) (k := 128) (o := 64) (V c main_arg0) (V c main_arg3) (fun q => V c main_v4 (ix2 0 q)) :=
  (dat0 (F := Ideal) V c).arrAt_eq_of_cover 3
    (Cert.Gin.lin (n := 100000) (k := 128) (o := 64) (V c main_arg0) (V c main_arg3) (fun q => V c main_v4 (ix2 0 q)))
    (fun t _ => Dense.flushed0 V c t) Dense.cover0

/-- After the second launch its output array is the perceptron of the sum of the two arrays it read block by block. -/
theorem arr1 (c : Dev nD) :
    (dat1 (F := Ideal) V c).arrAt 6 cfg1.N
      = Cert.Gin.mlp (n := 100000) (k := 64) (o := 64) (r := 64) (Cert.Gin.add (V c main_v5) (V c main_v15)) (V c main_v17)
          (fun q => V c main_v24 (ix2 0 q)) (V c main_v21) (fun q => V c main_v25 (ix2 0 q)) :=
  Cert.KernelIdeal.RegionConv.arr1 V c

/-- The same for the third launch. -/
theorem arr2 (c : Dev nD) :
    (dat2 (F := Ideal) V c).arrAt 6 cfg2.N
      = Cert.Gin.mlp (n := 100000) (k := 64) (o := 64) (r := 64) (Cert.Gin.add (V c main_v26) (V c main_v36)) (V c main_v38)
          (fun q => V c main_v45 (ix2 0 q)) (V c main_v42) (fun q => V c main_v46 (ix2 0 q)) :=
  Cert.KernelIdeal.RegionConv2.arr2 V c

/-- The same for the fourth launch. -/
theorem arr3 (c : Dev nD) :
    (dat3 (F := Ideal) V c).arrAt 6 cfg3.N
      = Cert.Gin.mlp (n := 100000) (k := 64) (o := 64) (r := 64) (Cert.Gin.add (V c main_v47) (V c main_v57)) (V c main_v59)
          (fun q => V c main_v66 (ix2 0 q)) (V c main_v63) (fun q => V c main_v67 (ix2 0 q)) :=
  Cert.KernelIdeal.RegionConv3.arr3 V c

end Cert.KernelIdeal.Region

end
-- ==== Proof.KHost.lean ====
/-
  The arrays the four launches find, and what they leave, followed through the host program.

  Before the first launch the host splits the edge list into its two rows and reshapes the first bias into a row. Before
  each later launch it gathers the current node features at the message sources, sums them into the target rows (the
  neighbourhood aggregate), and slices that layer's two weight matrices and two biases out of the stacked parameters. No
  host operation and no launch overwrites what a later stage still reads (the two edge rows and the four stacked
  parameter arrays), so these can be followed from boundary to boundary. With the per-launch array functions this gives
  the node features after each launch as the dense layer, respectively the perceptron of `h + agg h`, of the features
  before it.
-/
import proofs.«140374_j7997229105403_1_alg».proof.Proof.Gen.KernelIdeal.Frame
import proofs.«140374_j7997229105403_1_alg».proof.Proof.Spec
import proofs.«140374_j7997229105403_1_alg».proof.Proof.KLayers
import proofs.«140374_j7997229105403_1_alg».proof.Proof.KRegion
import Idealize.ShloMosaic.Lib.ValueLayout
import Idealize.ShloMosaic.Lib.StableHlo.Run

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀ Cert.KernelIdeal.Facts Cert.KernelIdeal.Layers

/-- A bias vector as the launches see it: reshaped to one row, read along that row. -/
def biasRow (b : FVec Ideal S64 .f32) : Fin 64 → EReal :=
  fun q => (shapeCast S1x64 b Facts₀.shapeCasts_S64_S1x64 : FVec Ideal S1x64 .f32) (ix2 0 q)

theorem biasRow_eq (b : FVec Ideal S64 .f32) : biasRow b = fun q => b (ix1 q) :=
  funext fun q => shapeCast_a_1a_apply b Facts₀.shapeCasts_S64_S1x64 0 q

/-- The neighbourhood aggregate from the two edge rows. -/
def aggOf (h : FVec Ideal S100000x64 .f32) (s d : Vec Ideal S1600000 .i32) : FVec Ideal S100000x64 .f32 :=
  Host.scatterAdd scatter_S100000x64_S1600000x1_S1600000x64_1_0_0_1 (broadcastInDim S100000x64 ![] Facts₀.bcast_S_S100000x64 (constant S_ .f32 0x00000000#32))
    (broadcastInDim S1600000x1 ![0] Facts₀.bcast_S1600000_S1600000x1_0 d)
    (Host.gather gather_S100000x64_S1600000x1_S1600000x64_1_0_n_n_0_1_164 h
      (broadcastInDim S1600000x1 ![0] Facts₀.bcast_S1600000_S1600000x1_0 (select (cmpi .slt s (broadcastInDim S1600000 ![] Facts₀.bcast_S_S1600000 (constantI S_ 32 0#32))) (addi s (broadcastInDim S1600000 ![] Facts₀.bcast_S_S1600000 (constantI S_ 32 100000#32))) s)))

theorem agg_eq (h : FVec Ideal S100000x64 .f32) (e : Vec Ideal S2x1600000 .i32) : agg h e = aggOf h (srcOf e) (dstOf e) := rfl

variable (m : (ℓ : Loc nD τ sig) → Buf (Elt Ideal) ℓ) (ρ : Dev nD → PrngReg) (c : Dev nD)

/-! ## The node features after each launch -/

/-- After the first dense layer. -/
def H0 : FVec Ideal S100000x64 .f32 :=
  Cert.Gin.lin (n := 100000) (k := 128) (o := 64) (m ((c : Thread nD τ).loc main_arg0)) (m ((c : Thread nD τ).loc main_arg3)) (biasRow (m ((c : Thread nD τ).loc main_arg4)))

/-- One message-passing layer from the features `h`. -/
def layer (h : FVec Ideal S100000x64 .f32) (e : Vec Ideal S2x1600000 .i32) (w1 : FVec Ideal S64x64 .f32) (b1 : FVec Ideal S64 .f32)
    (w2 : FVec Ideal S64x64 .f32) (b2 : FVec Ideal S64 .f32) : FVec Ideal S100000x64 .f32 :=
  Cert.Gin.mlp (n := 100000) (k := 64) (o := 64) (r := 64) (Cert.Gin.add h (agg h e)) w1 (biasRow b1) w2 (biasRow b2)

def H1 : FVec Ideal S100000x64 .f32 := layer (H0 m c) (m ((c : Thread nD τ).loc main_arg1)) (w1_0 (m ((c : Thread nD τ).loc main_arg5))) (b1_0 (m ((c : Thread nD τ).loc main_arg6))) (w2_0 (m ((c : Thread nD τ).loc main_arg7))) (b2_0 (m ((c : Thread nD τ).loc main_arg8)))
def H2 : FVec Ideal S100000x64 .f32 := layer (H1 m c) (m ((c : Thread nD τ).loc main_arg1)) (w1_1 (m ((c : Thread nD τ).loc main_arg5))) (b1_1 (m ((c : Thread nD τ).loc main_arg6))) (w2_1 (m ((c : Thread nD τ).loc main_arg7))) (b2_1 (m ((c : Thread nD τ).loc main_arg8)))
def H3 : FVec Ideal S100000x64 .f32 := layer (H2 m c) (m ((c : Thread nD τ).loc main_arg1)) (w1_2 (m ((c : Thread nD τ).loc main_arg5))) (b1_2 (m ((c : Thread nD τ).loc main_arg6))) (w2_2 (m ((c : Thread nD τ).loc main_arg7))) (b2_2 (m ((c : Thread nD τ).loc main_arg8)))

/-! ## What the later stages still read -/

/-- The two edge rows and the four stacked parameter arrays hold what the launch memory determines. -/
def Persist (W : Valuation τ sig (Elt Ideal)) : Prop :=
  W (Proc.devRef .tc main_v1) = srcOf (m ((c : Thread nD τ).loc main_arg1)) ∧ W (Proc.devRef .tc main_v3) = dstOf (m ((c : Thread nD τ).loc main_arg1))
  ∧ W (Proc.devRef .tc main_arg5) = (m ((c : Thread nD τ).loc main_arg5)) ∧ W (Proc.devRef .tc main_arg6) = (m ((c : Thread nD τ).loc main_arg6))
  ∧ W (Proc.devRef .tc main_arg7) = (m ((c : Thread nD τ).loc main_arg7)) ∧ W (Proc.devRef .tc main_arg8) = (m ((c : Thread nD τ).loc main_arg8))

section Stretches

variable (W : Valuation τ sig (Elt Ideal))

/-! ### The stretch before launch 0 -/

theorem ops0_src : StableHlo.after (hostOps0 (F := Ideal)) W (Proc.devRef .tc main_v1) = srcOf (W (Proc.devRef .tc main_arg1)) := by
  after_results <;> rfl
theorem ops0_dst : StableHlo.after (hostOps0 (F := Ideal)) W (Proc.devRef .tc main_v3) = dstOf (W (Proc.devRef .tc main_arg1)) := by
  after_results <;> rfl
theorem ops0_bias : StableHlo.after (hostOps0 (F := Ideal)) W (Proc.devRef .tc main_v4) = shapeCast S1x64 (W (Proc.devRef .tc main_arg4)) Facts₀.shapeCasts_S64_S1x64 := by
  after_results <;> rfl
theorem ops0_keep (b : Ref sig .tc) (hb : b = main_arg0 ∨ b = main_arg3 ∨ b = main_arg5 ∨ b = main_arg6 ∨ b = main_arg7 ∨ b = main_arg8) :
    StableHlo.after (hostOps0 (F := Ideal)) W (Proc.devRef .tc b) = W (Proc.devRef .tc b) := by
  rcases hb with rfl | rfl | rfl | rfl | rfl | rfl <;> (after_results <;> rfl)

/-! ### The stretch before launch 1 (layer 0) -/

set_option maxHeartbeats 3200000 in
theorem ops1_agg : StableHlo.after (hostOps1 (F := Ideal)) W (Proc.devRef .tc main_v15) = aggOf (W (Proc.devRef .tc main_v5)) (W (Proc.devRef .tc main_v1)) (W (Proc.devRef .tc main_v3)) := by
  after_results <;> rfl
theorem ops1_h : StableHlo.after (hostOps1 (F := Ideal)) W (Proc.devRef .tc main_v5) = W (Proc.devRef .tc main_v5) := by
  after_results <;> rfl
theorem ops1_w1 : StableHlo.after (hostOps1 (F := Ideal)) W (Proc.devRef .tc main_v17) = w1_0 (W (Proc.devRef .tc main_arg5)) := by
  after_results <;> rfl
theorem ops1_b1 : StableHlo.after (hostOps1 (F := Ideal)) W (Proc.devRef .tc main_v24) = shapeCast S1x64 (b1_0 (W (Proc.devRef .tc main_arg6))) Facts₀.shapeCasts_S64_S1x64 := by
  after_results <;> rfl
theorem ops1_w2 : StableHlo.after (hostOps1 (F := Ideal)) W (Proc.devRef .tc main_v21) = w2_0 (W (Proc.devRef .tc main_arg7)) := by
  after_results <;> rfl
theorem ops1_b2 : StableHlo.after (hostOps1 (F := Ideal)) W (Proc.devRef .tc main_v25) = shapeCast S1x64 (b2_0 (W (Proc.devRef .tc main_arg8))) Facts₀.shapeCasts_S64_S1x64 := by
  after_results <;> rfl
set_option maxHeartbeats 3200000 in
/-- The stretch writes none of the six buffers the later layers still read. -/
theorem ops1_persist (h : Persist m c W) : Persist m c (StableHlo.after (hostOps1 (F := Ideal)) W) := by
  obtain ⟨h1, h3, h5, h6, h7, h8⟩ := h
  refine ⟨Eq.trans ?_ h1, Eq.trans ?_ h3, Eq.trans ?_ h5, Eq.trans ?_ h6, Eq.trans ?_ h7, Eq.trans ?_ h8⟩ <;> (after_results <;> rfl)

/-! ### The stretch before launch 2 (layer 1) -/

set_option maxHeartbeats 3200000 in
theorem ops2_agg : StableHlo.after (hostOps2 (F := Ideal)) W (Proc.devRef .tc main_v36) = aggOf (W (Proc.devRef .tc main_v26)) (W (Proc.devRef .tc main_v1)) (W (Proc.devRef .tc main_v3)) := by
  after_results <;> rfl
theorem ops2_h : StableHlo.after (hostOps2 (F := Ideal)) W (Proc.devRef .tc main_v26) = W (Proc.devRef .tc main_v26) := by
  after_results <;> rfl
theorem ops2_w1 : StableHlo.after (hostOps2 (F := Ideal)) W (Proc.devRef .tc main_v38) = w1_1 (W (Proc.devRef .tc main_arg5)) := by
  after_results <;> rfl
theorem ops2_b1 : StableHlo.after (hostOps2 (F := Ideal)) W (Proc.devRef .tc main_v45) = shapeCast S1x64 (b1_1 (W (Proc.devRef .tc main_arg6))) Facts₀.shapeCasts_S64_S1x64 := by
  after_results <;> rfl
theorem ops2_w2 : StableHlo.after (hostOps2 (F := Ideal)) W (Proc.devRef .tc main_v42) = w2_1 (W (Proc.devRef .tc main_arg7)) := by
  after_results <;> rfl
theorem ops2_b2 : StableHlo.after (hostOps2 (F := Ideal)) W (Proc.devRef .tc main_v46) = shapeCast S1x64 (b2_1 (W (Proc.devRef .tc main_arg8))) Facts₀.shapeCasts_S64_S1x64 := by
  after_results <;> rfl
set_option maxHeartbeats 3200000 in
/-- The stretch writes none of the six buffers the later layers still read. -/
theorem ops2_persist (h : Persist m c W) : Persist m c (StableHlo.after (hostOps2 (F := Ideal)) W) := by
  obtain ⟨h1, h3, h5, h6, h7, h8⟩ := h
  refine ⟨Eq.trans ?_ h1, Eq.trans ?_ h3, Eq.trans ?_ h5, Eq.trans ?_ h6, Eq.trans ?_ h7, Eq.trans ?_ h8⟩ <;> (after_results <;> rfl)

/-! ### The stretch before launch 3 (layer 2) -/

set_option maxHeartbeats 3200000 in
theorem ops3_agg : StableHlo.after (hostOps3 (F := Ideal)) W (Proc.devRef .tc main_v57) = aggOf (W (Proc.devRef .tc main_v47)) (W (Proc.devRef .tc main_v1)) (W (Proc.devRef .tc main_v3)) := by
  after_results <;> rfl
theorem ops3_h : StableHlo.after (hostOps3 (F := Ideal)) W (Proc.devRef .tc main_v47) = W (Proc.devRef .tc main_v47) := by
  after_results <;> rfl
theorem ops3_w1 : StableHlo.after (hostOps3 (F := Ideal)) W (Proc.devRef .tc main_v59) = w1_2 (W (Proc.devRef .tc main_arg5)) := by
  after_results <;> rfl
theorem ops3_b1 : StableHlo.after (hostOps3 (F := Ideal)) W (Proc.devRef .tc main_v66) = shapeCast S1x64 (b1_2 (W (Proc.devRef .tc main_arg6))) Facts₀.shapeCasts_S64_S1x64 := by
  after_results <;> rfl
theorem ops3_w2 : StableHlo.after (hostOps3 (F := Ideal)) W (Proc.devRef .tc main_v63) = w2_2 (W (Proc.devRef .tc main_arg7)) := by
  after_results <;> rfl
theorem ops3_b2 : StableHlo.after (hostOps3 (F := Ideal)) W (Proc.devRef .tc main_v67) = shapeCast S1x64 (b2_2 (W (Proc.devRef .tc main_arg8))) Facts₀.shapeCasts_S64_S1x64 := by
  after_results <;> rfl
set_option maxHeartbeats 3200000 in
/-- The stretch writes none of the six buffers the later layers still read. -/
theorem ops3_persist (h : Persist m c W) : Persist m c (StableHlo.after (hostOps3 (F := Ideal)) W) := by
  obtain ⟨h1, h3, h5, h6, h7, h8⟩ := h
  refine ⟨Eq.trans ?_ h1, Eq.trans ?_ h3, Eq.trans ?_ h5, Eq.trans ?_ h6, Eq.trans ?_ h7, Eq.trans ?_ h8⟩ <;> (after_results <;> rfl)

end Stretches

/-! ## The boundaries, in order -/

theorem persist_W1 : Persist m c (W1 (F := Ideal) m ρ c) :=
  ⟨ops0_src (W0 m ρ c), ops0_dst (W0 m ρ c), ops0_keep (W0 m ρ c) main_arg5 (by simp), ops0_keep (W0 m ρ c) main_arg6 (by simp),
    ops0_keep (W0 m ρ c) main_arg7 (by simp), ops0_keep (W0 m ρ c) main_arg8 (by simp)⟩

theorem persist_W2 : Persist m c (W2 (F := Ideal) m ρ c) := by
  obtain ⟨h1, h3, h5, h6, h7, h8⟩ := persist_W1 m ρ c
  exact ⟨(W2_of_ne m ρ c main_v1 (by decide)).trans h1, (W2_of_ne m ρ c main_v3 (by decide)).trans h3,
    (W2_of_ne m ρ c main_arg5 (by decide)).trans h5, (W2_of_ne m ρ c main_arg6 (by decide)).trans h6,
    (W2_of_ne m ρ c main_arg7 (by decide)).trans h7, (W2_of_ne m ρ c main_arg8 (by decide)).trans h8⟩

/-- After launch 0 its output array is the first dense layer of the inputs. -/
theorem W2_out : W2 (F := Ideal) m ρ c (Proc.devRef .tc main_v5) = H0 m c := by
  refine (W2_arr m ρ c 3).trans ?_
  rw [Region.arr0 (V1 m ρ) c]
  have e0 : V1 (F := Ideal) m ρ c main_arg0 = (m ((c : Thread nD τ).loc main_arg0)) := ops0_keep (W0 m ρ c) main_arg0 (by simp)
  have e3 : V1 (F := Ideal) m ρ c main_arg3 = (m ((c : Thread nD τ).loc main_arg3)) := ops0_keep (W0 m ρ c) main_arg3 (by simp)
  have e4 : V1 (F := Ideal) m ρ c main_v4 = shapeCast S1x64 (m ((c : Thread nD τ).loc main_arg4)) Facts₀.shapeCasts_S64_S1x64 := ops0_bias (W0 m ρ c)
  rw [e0, e3, e4]
  rfl

/-- After launch 1 its output array is layer 0 of the features before it. -/
theorem W4_out : W4 (F := Ideal) m ρ c (Proc.devRef .tc main_v26) = H1 m c := by
  refine (W4_arr m ρ c 6).trans ?_
  rw [Region.arr1 (V3 m ρ) c]
  have hp := persist_W2 m ρ c
  obtain ⟨h1, h3, h5, h6, h7, h8⟩ := hp
  have eh : V3 (F := Ideal) m ρ c main_v5 = H0 m c := (ops1_h (W2 m ρ c)).trans (W2_out m ρ c)
  have ea : V3 (F := Ideal) m ρ c main_v15 = agg (H0 m c) (m ((c : Thread nD τ).loc main_arg1)) := by
    refine (ops1_agg (W2 m ρ c)).trans ?_
    rw [W2_out m ρ c, h1, h3]; rfl
  have ew1 : V3 (F := Ideal) m ρ c main_v17 = w1_0 (m ((c : Thread nD τ).loc main_arg5)) := (ops1_w1 (W2 m ρ c)).trans (by rw [h5])
  have eb1 : V3 (F := Ideal) m ρ c main_v24 = shapeCast S1x64 (b1_0 (m ((c : Thread nD τ).loc main_arg6))) Facts₀.shapeCasts_S64_S1x64 := (ops1_b1 (W2 m ρ c)).trans (by rw [h6])
  have ew2 : V3 (F := Ideal) m ρ c main_v21 = w2_0 (m ((c : Thread nD τ).loc main_arg7)) := (ops1_w2 (W2 m ρ c)).trans (by rw [h7])
  have eb2 : V3 (F := Ideal) m ρ c main_v25 = shapeCast S1x64 (b2_0 (m ((c : Thread nD τ).loc main_arg8))) Facts₀.shapeCasts_S64_S1x64 := (ops1_b2 (W2 m ρ c)).trans (by rw [h8])
  rw [eh, ea, ew1, eb1, ew2, eb2]
  rfl

theorem persist_W4 : Persist m c (W4 (F := Ideal) m ρ c) := by
  obtain ⟨h1, h3, h5, h6, h7, h8⟩ := ops1_persist m c (W2 m ρ c) (persist_W2 m ρ c)
  exact ⟨(W4_of_ne m ρ c main_v1 (by decide)).trans h1, (W4_of_ne m ρ c main_v3 (by decide)).trans h3,
    (W4_of_ne m ρ c main_arg5 (by decide)).trans h5, (W4_of_ne m ρ c main_arg6 (by decide)).trans h6,
    (W4_of_ne m ρ c main_arg7 (by decide)).trans h7, (W4_of_ne m ρ c main_arg8 (by decide)).trans h8⟩

/-- After launch 2 its output array is layer 1 of the features before it. -/
theorem W6_out : W6 (F := Ideal) m ρ c (Proc.devRef .tc main_v47) = H2 m c := by
  refine (W6_arr m ρ c 6).trans ?_
  rw [Region.arr2 (V5 m ρ) c]
  have hp := persist_W4 m ρ c
  obtain ⟨h1, h3, h5, h6, h7, h8⟩ := hp
  have eh : V5 (F := Ideal) m ρ c main_v26 = H1 m c := (ops2_h (W4 m ρ c)).trans (W4_out m ρ c)
  have ea : V5 (F := Ideal) m ρ c main_v36 = agg (H1 m c) (m ((c : Thread nD τ).loc main_arg1)) := by
    refine (ops2_agg (W4 m ρ c)).trans ?_
    rw [W4_out m ρ c, h1, h3]; rfl
  have ew1 : V5 (F := Ideal) m ρ c main_v38 = w1_1 (m ((c : Thread nD τ).loc main_arg5)) := (ops2_w1 (W4 m ρ c)).trans (by rw [h5])
  have eb1 : V5 (F := Ideal) m ρ c main_v45 = shapeCast S1x64 (b1_1 (m ((c : Thread nD τ).loc main_arg6))) Facts₀.shapeCasts_S64_S1x64 := (ops2_b1 (W4 m ρ c)).trans (by rw [h6])
  have ew2 : V5 (F := Ideal) m ρ c main_v42 = w2_1 (m ((c : Thread nD τ).loc main_arg7)) := (ops2_w2 (W4 m ρ c)).trans (by rw [h7])
  have eb2 : V5 (F := Ideal) m ρ c main_v46 = shapeCast S1x64 (b2_1 (m ((c : Thread nD τ).loc main_arg8))) Facts₀.shapeCasts_S64_S1x64 := (ops2_b2 (W4 m ρ c)).trans (by rw [h8])
  rw [eh, ea, ew1, eb1, ew2, eb2]
  rfl

theorem persist_W6 : Persist m c (W6 (F := Ideal) m ρ c) := by
  obtain ⟨h1, h3, h5, h6, h7, h8⟩ := ops2_persist m c (W4 m ρ c) (persist_W4 m ρ c)
  exact ⟨(W6_of_ne m ρ c main_v1 (by decide)).trans h1, (W6_of_ne m ρ c main_v3 (by decide)).trans h3,
    (W6_of_ne m ρ c main_arg5 (by decide)).trans h5, (W6_of_ne m ρ c main_arg6 (by decide)).trans h6,
    (W6_of_ne m ρ c main_arg7 (by decide)).trans h7, (W6_of_ne m ρ c main_arg8 (by decide)).trans h8⟩

/-- After launch 3 its output array is layer 2 of the features before it. -/
theorem W8_out : W8 (F := Ideal) m ρ c (Proc.devRef .tc main_v68) = H3 m c := by
  refine (W8_arr m ρ c 6).trans ?_
  rw [Region.arr3 (V7 m ρ) c]
  have hp := persist_W6 m ρ c
  obtain ⟨h1, h3, h5, h6, h7, h8⟩ := hp
  have eh : V7 (F := Ideal) m ρ c main_v47 = H2 m c := (ops3_h (W6 m ρ c)).trans (W6_out m ρ c)
  have ea : V7 (F := Ideal) m ρ c main_v57 = agg (H2 m c) (m ((c : Thread nD τ).loc main_arg1)) := by
    refine (ops3_agg (W6 m ρ c)).trans ?_
    rw [W6_out m ρ c, h1, h3]; rfl
  have ew1 : V7 (F := Ideal) m ρ c main_v59 = w1_2 (m ((c : Thread nD τ).loc main_arg5)) := (ops3_w1 (W6 m ρ c)).trans (by rw [h5])
  have eb1 : V7 (F := Ideal) m ρ c main_v66 = shapeCast S1x64 (b1_2 (m ((c : Thread nD τ).loc main_arg6))) Facts₀.shapeCasts_S64_S1x64 := (ops3_b1 (W6 m ρ c)).trans (by rw [h6])
  have ew2 : V7 (F := Ideal) m ρ c main_v63 = w2_2 (m ((c : Thread nD τ).loc main_arg7)) := (ops3_w2 (W6 m ρ c)).trans (by rw [h7])
  have eb2 : V7 (F := Ideal) m ρ c main_v67 = shapeCast S1x64 (b2_2 (m ((c : Thread nD τ).loc main_arg8))) Facts₀.shapeCasts_S64_S1x64 := (ops3_b2 (W6 m ρ c)).trans (by rw [h8])
  rw [eh, ea, ew1, eb1, ew2, eb2]
  rfl

theorem persist_W8 : Persist m c (W8 (F := Ideal) m ρ c) := by
  obtain ⟨h1, h3, h5, h6, h7, h8⟩ := ops3_persist m c (W6 m ρ c) (persist_W6 m ρ c)
  exact ⟨(W8_of_ne m ρ c main_v1 (by decide)).trans h1, (W8_of_ne m ρ c main_v3 (by decide)).trans h3,
    (W8_of_ne m ρ c main_arg5 (by decide)).trans h5, (W8_of_ne m ρ c main_arg6 (by decide)).trans h6,
    (W8_of_ne m ρ c main_arg7 (by decide)).trans h7, (W8_of_ne m ρ c main_arg8 (by decide)).trans h8⟩

end Cert.KernelIdeal.HostValue

end
-- ==== Proof.RefLayers.lean ====
/-
  The reference program's result as a composition of named stages: the first dense layer, three message-passing layers
  (each: aggregate the neighbours' rows, add, two rectified dense layers) and the readout. Each stage is the
  program's own chain of array operations; the two dense stages are then read entry by entry.
-/
import proofs.«140374_j7997229105403_1_alg».proof.Proof.RefRun
import proofs.«140374_j7997229105403_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.Layers

open Idealize.ShloMosaic Idealize.ShloMosaic.TcCoe Idealize.ShloMosaic.ValueIdx Idealize.SL.Sem Cert.ReferenceIdeal Cert.ReferenceIdeal.Facts₀ Cert.ReferenceIdeal.Facts

/-- The message sources: row 0 of the edge list. -/
def srcOf (e : Vec Ideal S2x1600000 .i32) : Vec Ideal S1600000 .i32 :=
  shapeCast _ (extractStridedSlice S1x1600000 ![0, 0] e slices_S2x1600000_S1x1600000_0_0) shapeCasts_S1x1600000_S1600000

/-- The message targets: row 1 of the edge list. -/
def dstOf (e : Vec Ideal S2x1600000 .i32) : Vec Ideal S1600000 .i32 :=
  shapeCast _ (extractStridedSlice S1x1600000 ![1, 0] e slices_S2x1600000_S1x1600000_1_0) shapeCasts_S1x1600000_S1600000

/-- The neighbourhood aggregate: the rows of `h` at the sources (a negative source counted from the end), summed into
    the rows named by the targets, starting from zero. -/
def agg (h : FVec Ideal S100000x64 .f32) (e : Vec Ideal S2x1600000 .i32) : FVec Ideal S100000x64 .f32 :=
  Host.scatterAdd scatter_S100000x64_S1600000x1_S1600000x64_1_0_0_1 (broadcastInDim S100000x64 ![] bcast_S_S100000x64 (constant S_ .f32 0x00000000#32))
    (broadcastInDim S1600000x1 ![0] bcast_S1600000_S1600000x1_0 (dstOf e))
    (Host.gather gather_S100000x64_S1600000x1_S1600000x64_1_0_n_n_0_1_164 h
      (broadcastInDim S1600000x1 ![0] bcast_S1600000_S1600000x1_0 (select (cmpi .slt (srcOf e) (broadcastInDim S1600000 ![] bcast_S_S1600000 (constantI S_ 32 0#32))) (addi (srcOf e) (broadcastInDim S1600000 ![] bcast_S_S1600000 (constantI S_ 32 100000#32))) (srcOf e))))

/-- Layer 0's first weight matrix. -/
def w1_0 (W : FVec Ideal S3x64x64 .f32) : FVec Ideal S64x64 .f32 :=
  shapeCast _ (extractStridedSlice S1x64x64 ![0, 0, 0] W slices_S3x64x64_S1x64x64_0_0_0) shapeCasts_S1x64x64_S64x64
/-- Layer 0's second weight matrix. -/
def w2_0 (W : FVec Ideal S3x64x64 .f32) : FVec Ideal S64x64 .f32 :=
  shapeCast _ (extractStridedSlice S1x64x64 ![0, 0, 0] W slices_S3x64x64_S1x64x64_0_0_0) shapeCasts_S1x64x64_S64x64
/-- Layer 0's first bias. -/
def b1_0 (B : FVec Ideal S3x64 .f32) : FVec Ideal S64 .f32 :=
  shapeCast _ (extractStridedSlice S1x64 ![0, 0] B slices_S3x64_S1x64_0_0) shapeCasts_S1x64_S64
/-- Layer 0's second bias. -/
def b2_0 (B : FVec Ideal S3x64 .f32) : FVec Ideal S64 .f32 :=
  shapeCast _ (extractStridedSlice S1x64 ![0, 0] B slices_S3x64_S1x64_0_0) shapeCasts_S1x64_S64

/-- Layer 1's first weight matrix. -/
def w1_1 (W : FVec Ideal S3x64x64 .f32) : FVec Ideal S64x64 .f32 :=
  shapeCast _ (extractStridedSlice S1x64x64 ![1, 0, 0] W slices_S3x64x64_S1x64x64_1_0_0) shapeCasts_S1x64x64_S64x64
/-- Layer 1's second weight matrix. -/
def w2_1 (W : FVec Ideal S3x64x64 .f32) : FVec Ideal S64x64 .f32 :=
  shapeCast _ (extractStridedSlice S1x64x64 ![1, 0, 0] W slices_S3x64x64_S1x64x64_1_0_0) shapeCasts_S1x64x64_S64x64
/-- Layer 1's first bias. -/
def b1_1 (B : FVec Ideal S3x64 .f32) : FVec Ideal S64 .f32 :=
  shapeCast _ (extractStridedSlice S1x64 ![1, 0] B slices_S3x64_S1x64_1_0) shapeCasts_S1x64_S64
/-- Layer 1's second bias. -/
def b2_1 (B : FVec Ideal S3x64 .f32) : FVec Ideal S64 .f32 :=
  shapeCast _ (extractStridedSlice S1x64 ![1, 0] B slices_S3x64_S1x64_1_0) shapeCasts_S1x64_S64

/-- Layer 2's first weight matrix. -/
def w1_2 (W : FVec Ideal S3x64x64 .f32) : FVec Ideal S64x64 .f32 :=
  shapeCast _ (extractStridedSlice S1x64x64 ![2, 0, 0] W slices_S3x64x64_S1x64x64_2_0_0) shapeCasts_S1x64x64_S64x64
/-- Layer 2's second weight matrix. -/
def w2_2 (W : FVec Ideal S3x64x64 .f32) : FVec Ideal S64x64 .f32 :=
  shapeCast _ (extractStridedSlice S1x64x64 ![2, 0, 0] W slices_S3x64x64_S1x64x64_2_0_0) shapeCasts_S1x64x64_S64x64
/-- Layer 2's first bias. -/
def b1_2 (B : FVec Ideal S3x64 .f32) : FVec Ideal S64 .f32 :=
  shapeCast _ (extractStridedSlice S1x64 ![2, 0] B slices_S3x64_S1x64_2_0) shapeCasts_S1x64_S64
/-- Layer 2's second bias. -/
def b2_2 (B : FVec Ideal S3x64 .f32) : FVec Ideal S64 .f32 :=
  shapeCast _ (extractStridedSlice S1x64 ![2, 0] B slices_S3x64_S1x64_2_0) shapeCasts_S1x64_S64

/-- The readout's scores: the node features pooled per graph (summed into the rows named by `bt`), one rectified
    dense layer, one dense layer. -/
def logits (h : FVec Ideal S100000x64 .f32) (bt : Vec Ideal S100000 .i32) (qw : FVec Ideal S64x64 .f32) (qb : FVec Ideal S64 .f32) (rw : FVec Ideal S64x10 .f32) (rb : FVec Ideal S10 .f32) : FVec Ideal S1000x10 .f32 :=
  addf (Host.dotGeneral dot_S1000x64_S64x10_S1000x10_1_0_0_1_n_n none (maximumf (addf (Host.dotGeneral dot_S1000x64_S64x64_S1000x64_1_0_0_1_n_n none (Host.scatterAdd scatter_S1000x64_S100000x1_S100000x64_1_0_0_1 (broadcastInDim S1000x64 ![] bcast_S_S1000x64 (constant S_ .f32 0x00000000#32)) (broadcastInDim S100000x1 ![0] bcast_S100000_S100000x1_0 bt) h) qw) (broadcastInDim S1000x64 ![0, 1] bcast_S1x64_S1000x64_0_1 (broadcastInDim S1x64 ![1] bcast_S64_S1x64_1 qb))) (broadcastInDim S1000x64 ![] bcast_S_S1000x64 (constant S_ .f32 0x00000000#32))) rw) (broadcastInDim S1000x10 ![0, 1] bcast_S1x10_S1000x10_0_1 (broadcastInDim S1x10 ![1] bcast_S10_S1x10_1 rb))

/-- The logarithm of the softmax along each row. -/
def logSoftmax (lg : FVec Ideal S1000x10 .f32) : FVec Ideal S1000x10 .f32 :=
  subf (subf lg (broadcastInDim S1000x10 ![0, 1] bcast_S1000x1_S1000x10_0_1 (broadcastInDim S1000x1 ![0] bcast_S1000_S1000x1_0 (maximumf (broadcastInDim S1000 ![] bcast_S_S1000 (constant S_ .f32 0xFF800000#32)) (Host.reduce FloatOps.maximumf lg (constant S_ .f32 0xFF800000#32) reducesTo_S1000x10_S1000_d1 h_S_))))) (broadcastInDim S1000x10 ![0, 1] bcast_S1000x1_S1000x10_0_1 (Host.log (broadcastInDim S1000x1 ![0] bcast_S1000_S1000x1_0 (Host.reduceAdd (Host.exp (subf lg (broadcastInDim S1000x10 ![0, 1] bcast_S1000x1_S1000x10_0_1 (broadcastInDim S1000x1 ![0] bcast_S1000_S1000x1_0 (maximumf (broadcastInDim S1000 ![] bcast_S_S1000 (constant S_ .f32 0xFF800000#32)) (Host.reduce FloatOps.maximumf lg (constant S_ .f32 0xFF800000#32) reducesTo_S1000x10_S1000_d1 h_S_)))))) (constant S_ .f32 0x00000000#32) reducesTo_S1000x10_S1000_d1 h_S_))))

/-- Everything after the last message-passing layer. -/
def tail (h : FVec Ideal S100000x64 .f32) (bt : Vec Ideal S100000 .i32) (qw : FVec Ideal S64x64 .f32) (qb : FVec Ideal S64 .f32) (rw : FVec Ideal S64x10 .f32) (rb : FVec Ideal S10 .f32) : FVec Ideal S1000x10 .f32 :=
  logSoftmax (logits h bt qw qb rw rb)

/-- The first dense layer `x · w + b`. -/
def pre (x : FVec Ideal S100000x128 .f32) (w : FVec Ideal S128x64 .f32) (b : FVec Ideal S64 .f32) : FVec Ideal S100000x64 .f32 :=
  addf (Host.dotGeneral dot_S100000x128_S128x64_S100000x64_1_0_0_1_n_n none x w) (broadcastInDim S100000x64 ![0, 1] bcast_S1x64_S100000x64_0_1 (broadcastInDim S1x64 ![1] bcast_S64_S1x64_1 b))

/-- One rectified dense layer `max (z · w + b) 0`. -/
def dense (z : FVec Ideal S100000x64 .f32) (w : FVec Ideal S64x64 .f32) (b : FVec Ideal S64 .f32) : FVec Ideal S100000x64 .f32 :=
  maximumf (addf (Host.dotGeneral dot_S100000x64_S64x64_S100000x64_1_0_0_1_n_n none z w) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- One message-passing layer from the node features `h` and their aggregate `a`. -/
def conv (h a : FVec Ideal S100000x64 .f32) (w1 : FVec Ideal S64x64 .f32) (b1 : FVec Ideal S64 .f32) (w2 : FVec Ideal S64x64 .f32) (b2 : FVec Ideal S64 .f32) : FVec Ideal S100000x64 .f32 :=
  dense (dense (addf h a) w1 b1) w2 b2

/-- The node features after the first dense layer and after each message-passing layer. -/
def h0 (x : FVec Ideal S100000x128 .f32) (pw : FVec Ideal S128x64 .f32) (pb : FVec Ideal S64 .f32) : FVec Ideal S100000x64 .f32 := pre x pw pb
def h1 (x : FVec Ideal S100000x128 .f32) (e : Vec Ideal S2x1600000 .i32) (pw : FVec Ideal S128x64 .f32) (pb : FVec Ideal S64 .f32) (W1 : FVec Ideal S3x64x64 .f32) (B1 : FVec Ideal S3x64 .f32) (W2 : FVec Ideal S3x64x64 .f32) (B2 : FVec Ideal S3x64 .f32) : FVec Ideal S100000x64 .f32 :=
  conv (h0 x pw pb) (agg (h0 x pw pb) e) (w1_0 W1) (b1_0 B1) (w2_0 W2) (b2_0 B2)
def h2 (x : FVec Ideal S100000x128 .f32) (e : Vec Ideal S2x1600000 .i32) (pw : FVec Ideal S128x64 .f32) (pb : FVec Ideal S64 .f32) (W1 : FVec Ideal S3x64x64 .f32) (B1 : FVec Ideal S3x64 .f32) (W2 : FVec Ideal S3x64x64 .f32) (B2 : FVec Ideal S3x64 .f32) : FVec Ideal S100000x64 .f32 :=
  conv (h1 x e pw pb W1 B1 W2 B2) (agg (h1 x e pw pb W1 B1 W2 B2) e) (w1_1 W1) (b1_1 B1) (w2_1 W2) (b2_1 B2)
def h3 (x : FVec Ideal S100000x128 .f32) (e : Vec Ideal S2x1600000 .i32) (pw : FVec Ideal S128x64 .f32) (pb : FVec Ideal S64 .f32) (W1 : FVec Ideal S3x64x64 .f32) (B1 : FVec Ideal S3x64 .f32) (W2 : FVec Ideal S3x64x64 .f32) (B2 : FVec Ideal S3x64 .f32) : FVec Ideal S100000x64 .f32 :=
  conv (h2 x e pw pb W1 B1 W2 B2) (agg (h2 x e pw pb W1 B1 W2 B2) e) (w1_2 W1) (b1_2 B1) (w2_2 W2) (b2_2 B2)

set_option maxRecDepth 131072 in
/-- The reference's result is the readout of the third layer's features. -/
theorem res_eq (m : (ℓ : Loc nD τ sig) → Buf (Elt Ideal) ℓ) (c : Dev nD) :
    ValueP.res_main_v107 (F := Ideal) m c
      = tail (h3 (m ((c.tc : Thread nD τ).loc main_arg0)) (m ((c.tc : Thread nD τ).loc main_arg1)) (m ((c.tc : Thread nD τ).loc main_arg3)) (m ((c.tc : Thread nD τ).loc main_arg4))
                 (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) := by
  unfold ValueP.res_main_v107
  rfl

/-- The bias, carried along the rows, read at an entry. -/
theorem bias_ix2 (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  rw [broadcastInDim_apply _ _ _ (ix2 p q) (ix2 (0 : Fin 1) q) (fun a => by match a with | ⟨0, _⟩ => rfl | ⟨1, _⟩ => rfl)]
  rw [broadcastInDim_apply _ _ _ (ix2 (0 : Fin 1) q) (ix1 q) (fun a => by match a with | ⟨0, _⟩ => rfl)]

/-- The zero array read at an entry. -/
theorem zero_ix2 (i : S100000x64.Idx) :
    broadcastInDim S100000x64 ![] bcast_S_S100000x64 (constant (F := Ideal) S_ .f32 0x00000000#32) i = 0 := by
  rw [broadcastInDim_apply _ _ _ i ix0 (fun a => a.elim0), constant_apply, Ideal.ofBits_zero_f32]

/-- The 64-term contraction read at an entry: the sum over the contracted axis of the products of row `p` of the left
    factor with column `q` of the right one. -/
theorem dot64_ix2 (z : FVec Ideal S100000x64 .f32) (w : FVec Ideal S64x64 .f32) (p : Fin 100000) (q : Fin 64) :
    Host.dotGeneral (F := Ideal) dot_S100000x64_S64x64_S100000x64_1_0_0_1_n_n none z w (ix2 p q)
      = ∑ j : Fin 64, z (ix2 p j) * w (ix2 j q) := by
  simp only [Host.dotGeneral]
  rw [Ideal.dotGeneral_apply]
  rw [← Equiv.sum_comp (contrEquiv1 dot_S100000x64_S64x64_S100000x64_1_0_0_1_n_n 64 rfl rfl).symm]
  refine Finset.sum_congr rfl fun j _ => ?_
  have hl : dot_S100000x64_S64x64_S100000x64_1_0_0_1_n_n.lhsIdx (ix2 p q)
      ((contrEquiv1 dot_S100000x64_S64x64_S100000x64_1_0_0_1_n_n 64 rfl rfl).symm j) = ix2 p j :=
    funext fun a => Fin.ext (by
      match a with
      | ⟨0, _⟩ => rfl
      | ⟨1, _⟩ =>
        exact (DotDims.lhsIdx_val_of_single _ rfl _ _).trans (contrEquiv1_symm_val _ 64 rfl rfl j))
  have hr : dot_S100000x64_S64x64_S100000x64_1_0_0_1_n_n.rhsIdx (ix2 p q)
      ((contrEquiv1 dot_S100000x64_S64x64_S100000x64_1_0_0_1_n_n 64 rfl rfl).symm j) = ix2 j q :=
    funext fun a => Fin.ext (by
      match a with
      | ⟨0, _⟩ =>
        exact (DotDims.rhsIdx_val_of_single _ rfl _ _).trans (contrEquiv1_symm_val _ 64 rfl rfl j)
      | ⟨1, _⟩ => rfl)
  rw [hl, hr]

/-- The 128-term contraction of the first layer read at an entry. -/
theorem dot128_ix2 (x : FVec Ideal S100000x128 .f32) (w : FVec Ideal S128x64 .f32) (p : Fin 100000) (q : Fin 64) :
    Host.dotGeneral (F := Ideal) dot_S100000x128_S128x64_S100000x64_1_0_0_1_n_n none x w (ix2 p q)
      = ∑ j : Fin 128, x (ix2 p j) * w (ix2 j q) := by
  simp only [Host.dotGeneral]
  rw [Ideal.dotGeneral_apply]
  rw [← Equiv.sum_comp (contrEquiv1 dot_S100000x128_S128x64_S100000x64_1_0_0_1_n_n 128 rfl rfl).symm]
  refine Finset.sum_congr rfl fun j _ => ?_
  have hl : dot_S100000x128_S128x64_S100000x64_1_0_0_1_n_n.lhsIdx (ix2 p q)
      ((contrEquiv1 dot_S100000x128_S128x64_S100000x64_1_0_0_1_n_n 128 rfl rfl).symm j) = ix2 p j :=
    funext fun a => Fin.ext (by
      match a with
      | ⟨0, _⟩ => rfl
      | ⟨1, _⟩ =>
        exact (DotDims.lhsIdx_val_of_single _ rfl _ _).trans (contrEquiv1_symm_val _ 128 rfl rfl j))
  have hr : dot_S100000x128_S128x64_S100000x64_1_0_0_1_n_n.rhsIdx (ix2 p q)
      ((contrEquiv1 dot_S100000x128_S128x64_S100000x64_1_0_0_1_n_n 128 rfl rfl).symm j) = ix2 j q :=
    funext fun a => Fin.ext (by
      match a with
      | ⟨0, _⟩ =>
        exact (DotDims.rhsIdx_val_of_single _ rfl _ _).trans (contrEquiv1_symm_val _ 128 rfl rfl j)
      | ⟨1, _⟩ => rfl)
  rw [hl, hr]

/-- One rectified dense layer read at an entry. -/
theorem dense_ix2 (z : FVec Ideal S100000x64 .f32) (w : FVec Ideal S64x64 .f32) (b : FVec Ideal S64 .f32) (p : Fin 100000) (q : Fin 64) :
    dense z w b (ix2 p q) = max ((∑ j : Fin 64, z (ix2 p j) * w (ix2 j q)) + b (ix1 q)) 0 := by
  unfold dense
  rw [maximumf_apply, addf_apply, dot64_ix2, bias_ix2, zero_ix2]

/-- The first dense layer, entry by entry. -/
theorem pre_eq (x : FVec Ideal S100000x128 .f32) (w : FVec Ideal S128x64 .f32) (b : FVec Ideal S64 .f32) :
    pre x w b = Cert.Gin.lin (n := 100000) (k := 128) (o := 64) x w (fun q => b (ix1 q)) := by
  funext i
  obtain ⟨p, q, rfl⟩ : ∃ (p : Fin 100000) (q : Fin 64), i = ix2 p q := ⟨i 0, i 1, eq_ix2 i⟩
  unfold pre
  rw [addf_apply, dot128_ix2, bias_ix2, Cert.Gin.lin_ix2]

/-- One message-passing layer, entry by entry: the perceptron of `h + a`. -/
theorem conv_eq (h a : FVec Ideal S100000x64 .f32) (w1 : FVec Ideal S64x64 .f32) (b1 : FVec Ideal S64 .f32) (w2 : FVec Ideal S64x64 .f32) (b2 : FVec Ideal S64 .f32) :
    conv h a w1 b1 w2 b2
      = Cert.Gin.mlp (n := 100000) (k := 64) (o := 64) (r := 64) (Cert.Gin.add h a) w1 (fun q => b1 (ix1 q)) w2 (fun q => b2 (ix1 q)) := by
  funext i
  obtain ⟨p, q, rfl⟩ : ∃ (p : Fin 100000) (q : Fin 64), i = ix2 p q := ⟨i 0, i 1, eq_ix2 i⟩
  unfold conv
  rw [dense_ix2, Cert.Gin.mlp_ix2]
  simp only [dense_ix2]
  rfl

end Cert.ReferenceIdeal.Layers

end
-- ==== Proof.Bridge.lean ====
/-
  The two programs compute one function.

  The kernel program's host stages and the reference's are the same array operations on the same shapes, so the
  neighbourhood aggregate, the parameter slices and the readout of the two programs are literally the same functions.
  What differs is only how the dense stages are carried out: block by block inside the launches on one side, as whole
  matrix products on the other. Both are, entry by entry, the dense layer `x · w + b` and the perceptron of `h + agg h`;
  a bias reshaped to a row and read along the row is the bias. By induction over the three layers the node
  features agree after every stage, and the readout is applied to equal arrays.
-/
import proofs.«140374_j7997229105403_1_alg».proof.Proof.KHost
import proofs.«140374_j7997229105403_1_alg».proof.Proof.RefLayers

set_option maxRecDepth 16384

noncomputable section

namespace Cert.Proof.Bridge

open Idealize.ShloMosaic Idealize.ShloMosaic.TcCoe Idealize.ShloMosaic.ValueIdx Idealize.SL.Sem

/-- The aggregate is the same function in both programs. -/
theorem agg_eq (h : FVec Ideal Cert.KernelIdeal.S100000x64 .f32) (e : Vec Ideal Cert.KernelIdeal.S2x1600000 .i32) :
    Cert.KernelIdeal.Layers.agg h e = Cert.ReferenceIdeal.Layers.agg h e := rfl

/-- The readout is the same function in both programs. -/
theorem tail_eq (h : FVec Ideal Cert.KernelIdeal.S100000x64 .f32) (bt : Vec Ideal Cert.KernelIdeal.S100000 .i32)
    (qw : FVec Ideal Cert.KernelIdeal.S64x64 .f32) (qb : FVec Ideal Cert.KernelIdeal.S64 .f32)
    (rw : FVec Ideal Cert.KernelIdeal.S64x10 .f32) (rb : FVec Ideal Cert.KernelIdeal.S10 .f32) :
    Cert.KernelIdeal.Layers.tail h bt qw qb rw rb = Cert.ReferenceIdeal.Layers.tail h bt qw qb rw rb := rfl

/-- One message-passing layer: the launch's perceptron of `h + agg h` is the reference's two rectified dense stages. -/
theorem layer_eq (h : FVec Ideal Cert.KernelIdeal.S100000x64 .f32) (e : Vec Ideal Cert.KernelIdeal.S2x1600000 .i32)
    (w1 : FVec Ideal Cert.KernelIdeal.S64x64 .f32) (b1 : FVec Ideal Cert.KernelIdeal.S64 .f32)
    (w2 : FVec Ideal Cert.KernelIdeal.S64x64 .f32) (b2 : FVec Ideal Cert.KernelIdeal.S64 .f32) :
    Cert.KernelIdeal.HostValue.layer h e w1 b1 w2 b2
      = Cert.ReferenceIdeal.Layers.conv h (Cert.ReferenceIdeal.Layers.agg h e) w1 b1 w2 b2 := by
  rw [Cert.ReferenceIdeal.Layers.conv_eq]
  unfold Cert.KernelIdeal.HostValue.layer
  rw [Cert.KernelIdeal.HostValue.biasRow_eq, Cert.KernelIdeal.HostValue.biasRow_eq, agg_eq]

variable (m : (ℓ : Loc Cert.KernelIdeal.nD Cert.KernelIdeal.τ Cert.KernelIdeal.sig) → Buf (Elt Ideal) ℓ) (c : Dev Cert.KernelIdeal.nD)

theorem H0_eq : Cert.KernelIdeal.HostValue.H0 m c = Cert.ReferenceIdeal.Layers.h0 (m ((c : Thread Cert.KernelIdeal.nD Cert.KernelIdeal.τ).loc Cert.KernelIdeal.main_arg0)) (m ((c : Thread Cert.KernelIdeal.nD Cert.KernelIdeal.τ).loc Cert.KernelIdeal.main_arg3)) (m ((c : Thread Cert.KernelIdeal.nD Cert.KernelIdeal.τ).loc Cert.KernelIdeal.main_arg4)) := by
  unfold Cert.KernelIdeal.HostValue.H0 Cert.ReferenceIdeal.Layers.h0
  rw [Cert.ReferenceIdeal.Layers.pre_eq, Cert.KernelIdeal.HostValue.biasRow_eq]

theorem H1_eq : Cert.KernelIdeal.HostValue.H1 m c
    = Cert.ReferenceIdeal.Layers.h1 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  unfold Cert.KernelIdeal.HostValue.H1 Cert.ReferenceIdeal.Layers.h1
  rw [layer_eq, H0_eq]
  rfl

theorem H2_eq : Cert.KernelIdeal.HostValue.H2 m c
    = Cert.ReferenceIdeal.Layers.h2 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  unfold Cert.KernelIdeal.HostValue.H2 Cert.ReferenceIdeal.Layers.h2
  rw [layer_eq, H1_eq]
  rfl

theorem H3_eq : Cert.KernelIdeal.HostValue.H3 m c
    = Cert.ReferenceIdeal.Layers.h3 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  unfold Cert.KernelIdeal.HostValue.H3 Cert.ReferenceIdeal.Layers.h3
  rw [layer_eq, H2_eq]
  rfl

end Cert.Proof.Bridge

end
-- ==== Proof.lean ====
/-
  The certificate: a three-layer message-passing network with a pooled readout, computed by a program of four
  block-wise launches among host stages, against the same network written with whole-array operations.

  Every program runs to the end without a fault and leaves its arguments as it found them. The kernel program is its own
  idealization (no operation is rewritten), so that conjunct is trivial. At the exact reals both programs return the
  readout `logSoftmax (relu (pool h₃ · P + p) · Q + q)` of the third layer's node features, where
  `h₀ = x · W + b` and `hₗ₊₁ = relu (relu ((hₗ + agg hₗ) · W₁ + b₁) · W₂ + b₂)`: the launches compute each dense stage
  block of rows by block of rows, the reference as whole matrix products, and entry by entry these are the same sums
  (a sum over the contracted axis in a commutative monoid; rounding the matrix unit's operands is the identity at the
  exact reals). The aggregate, the parameter slices and the readout are the same array operations in both programs and
  are never opened. No law used needs the inputs to be finite.
-/
import proofs.«140374_j7997229105403_1_alg».proof.Defs
import proofs.«140374_j7997229105403_1_alg».proof.Proof.Gen.Kernel
import proofs.«140374_j7997229105403_1_alg».proof.Proof.Gen.Kernel.Skeleton
import proofs.«140374_j7997229105403_1_alg».proof.Proof.Gen.Kernel.Launch
import proofs.«140374_j7997229105403_1_alg».proof.Proof.Gen.Kernel.Points
import proofs.«140374_j7997229105403_1_alg».proof.Proof.Gen.Kernel.Frame
import proofs.«140374_j7997229105403_1_alg».proof.Proof.Gen.KernelIdeal
import proofs.«140374_j7997229105403_1_alg».proof.Proof.Gen.KernelIdeal.Skeleton
import proofs.«140374_j7997229105403_1_alg».proof.Proof.Gen.KernelIdeal.Launch
import proofs.«140374_j7997229105403_1_alg».proof.Proof.Gen.KernelIdeal.Points
import proofs.«140374_j7997229105403_1_alg».proof.Proof.Gen.KernelIdeal.Frame
import proofs.«140374_j7997229105403_1_alg».proof.Proof.Gen.ReferenceIdeal
import proofs.«140374_j7997229105403_1_alg».proof.Proof.Gen.Pre_finite_inputs
import proofs.«140374_j7997229105403_1_alg».proof.Proof.RefRun
import proofs.«140374_j7997229105403_1_alg».proof.Proof.KRun
import proofs.«140374_j7997229105403_1_alg».proof.Proof.KTail
import proofs.«140374_j7997229105403_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The kernel program's result: the readout of the node features after the fourth launch. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W12 (F := Ideal) m ρ c (Proc.devRef .tc Cert.KernelIdeal.main_v81)
      = Cert.KernelIdeal.Layers.tail (Cert.KernelIdeal.HostValue.H3 m c) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  rw [Cert.KernelIdeal.TailValue.W12_v81 m ρ c, Cert.KernelIdeal.HostValue.W8_out m ρ c]

/-- At the exact reals the two programs, run from memories that agree on the arguments, return the same array. -/
theorem algebraic : Cert.algebraic_KernelIdeal_ReferenceIdeal := by
  intro m ρ m' ρ' _ hagree
  refine ⟨fun c => Cert.KernelIdeal.Layers.tail (Cert.KernelIdeal.HostValue.H3 m c) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (kernel_result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.Layers.res_eq, e0, e1, e2, e3, e4, e5, e6, e7, e8, e9, e10, e11, e12]
    show _ = Cert.KernelIdeal.Layers.tail (Cert.KernelIdeal.HostValue.H3 m c) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
    rw [Cert.Proof.Bridge.tail_eq, Cert.Proof.Bridge.H3_eq] <;> rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
